-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S8192x512 .f32) (main_arg1 : IVec S8192x8192 32) (main_arg2 : FVec F S512x256 .f32) (main_arg3 : FVec F S512x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256x1 : Shape := ⟨2, ![256, 1]⟩
abbrev S256x2 : Shape := ⟨2, ![256, 2]⟩
abbrev S8192x2 : Shape := ⟨2, ![8192, 2]⟩
abbrev S1024x512 : Shape := ⟨2, ![1024, 512]⟩
abbrev S1024x2 : Shape := ⟨2, ![1024, 2]⟩
abbrev S1024x256 : Shape := ⟨2, ![1024, 256]⟩
abbrev S8192x1 : Shape := ⟨2, ![8192, 1]⟩
abbrev S1x8192 : Shape := ⟨2, ![1, 8192]⟩
abbrev S256x8192 : Shape := ⟨2, ![256, 8192]⟩
abbrev S1x2048 : Shape := ⟨2, ![1, 2048]⟩
abbrev S256x2048 : Shape := ⟨2, ![256, 2048]⟩
abbrev S256 : Shape := ⟨1, ![256]⟩

abbrev nBuf : Space → Nat
  | .hbm => 12
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S256x1, .f32⟩
  | .hbm, ⟨5, _⟩ => ⟨S256x1, .f32⟩
  | .hbm, ⟨6, _⟩ => ⟨S256x2, .f32⟩
  | .hbm, ⟨7, _⟩ => ⟨S8192x2, .f32⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256x2, .f32⟩
  | .local _ .vmem, ⟨4, _⟩ => ⟨S1024x2, .f32⟩
  | .local _ .vmem, ⟨5, _⟩ => ⟨S1024x2, .f32⟩
  | .local _ .vmem, ⟨6, _⟩ => ⟨S256x1, .f32⟩
  | .local _ .vmem, ⟨7, _⟩ => ⟨S256x1, .f32⟩
  | .local _ .vmem, ⟨8, _⟩ => ⟨S1x8192, .f32⟩
  | .local _ .vmem, ⟨9, _⟩ => ⟨S256x8192, .i32⟩
  | .local _ .vmem, ⟨10, _⟩ => ⟨S256x8192, .i32⟩
  | .local _ .vmem, ⟨11, _⟩ => ⟨S256x8192, .f32⟩
  | .local _ .vmem, ⟨12, _⟩ => ⟨S256x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

@[reducible] def k1_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c2048_i32 : BitVec 32 := 2048#32
  let v11 : BitVec 32 := Scalar.muli arg5 c2048_i32
  v11
def k1_off1 (k1_t1 : Fin k1_t1_loop.trips) : Fin 2 → Nat :=
  let c0_12 : Index := 0#32
  let c0_i32 : BitVec 32 := 0#32
  let c1_i32 : BitVec 32 := 1#32
  let arg5 : BitVec 32 := Scf.iv c0_i32 c1_i32 k1_t1
  let c2048_i32 : BitVec 32 := 2048#32
  let v11 : BitVec 32 := Scalar.muli arg5 c2048_i32
  let v12 : BitVec 32 := v11
  let v13 : Index := Scalar.indexCast v12
  ![0, v13.toNat]
def k1_off2 (k1_t1 : Fin k1_t1_loop.trips) : Fin 2 → Nat :=
  let c0_13 : Index := 0#32
  let c0_i32 : BitVec 32 := 0#32
  let c1_i32 : BitVec 32 := 1#32
  let arg5 : BitVec 32 := Scf.iv c0_i32 c1_i32 k1_t1
  let c2048_i32 : BitVec 32 := 2048#32
  let v11 : BitVec 32 := Scalar.muli arg5 c2048_i32
  let v12 : BitVec 32 := v11
  let v16 : Index := Scalar.indexCast v12
  ![0, v16.toNat]
@[reducible] def k1_t2_loop : Scf.Loop 32 :=
  let c0_i32_3 : BitVec 32 := 0#32
  let c4_i32_4 : BitVec 32 := 4#32
  let v6 : BitVec 32 := Scalar.addi c0_i32_3 c4_i32_4
  let c1_i32_5 : BitVec 32 := 1#32
  ⟨c0_i32_3, v6, c1_i32_5⟩
def k1_mult2 (k1_t2 : Fin k1_t2_loop.trips) : BitVec 32 :=
  let c0_i32_3 : BitVec 32 := 0#32
  let c1_i32_5 : BitVec 32 := 1#32
  let arg5 : BitVec 32 := Scf.iv c0_i32_3 c1_i32_5 k1_t2
  let c2048_i32 : BitVec 32 := 2048#32
  let v11 : BitVec 32 := Scalar.muli arg5 c2048_i32
  v11
def k1_off3 (k1_t2 : Fin k1_t2_loop.trips) : Fin 2 → Nat :=
  let c0_12 : Index := 0#32
  let c0_i32_3 : BitVec 32 := 0#32
  let c1_i32_5 : BitVec 32 := 1#32
  let arg5 : BitVec 32 := Scf.iv c0_i32_3 c1_i32_5 k1_t2
  let c2048_i32 : BitVec 32 := 2048#32
  let v11 : BitVec 32 := Scalar.muli arg5 c2048_i32
  let v12 : BitVec 32 := v11
  let v13 : Index := Scalar.indexCast v12
  ![0, v13.toNat]
def k1_off4 (k1_t2 : Fin k1_t2_loop.trips) : Fin 2 → Nat :=
  let c0_13 : Index := 0#32
  let c0_i32_3 : BitVec 32 := 0#32
  let c1_i32_5 : BitVec 32 := 1#32
  let arg5 : BitVec 32 := Scf.iv c0_i32_3 c1_i32_5 k1_t2
  let c2048_i32 : BitVec 32 := 2048#32
  let v11 : BitVec 32 := Scalar.muli arg5 c2048_i32
  let v12 : BitVec 32 := v11
  let v16 : Index := Scalar.indexCast v12
  ![0, v16.toNat]
@[reducible] def k1_t3_loop : Scf.Loop 32 :=
  let c0_i32_8 : BitVec 32 := 0#32
  let c4_i32_9 : BitVec 32 := 4#32
  let v10 : BitVec 32 := Scalar.addi c0_i32_8 c4_i32_9
  let c1_i32_10 : BitVec 32 := 1#32
  ⟨c0_i32_8, v10, c1_i32_10⟩
def k1_mult3 (k1_t3 : Fin k1_t3_loop.trips) : BitVec 32 :=
  let c0_i32_8 : BitVec 32 := 0#32
  let c1_i32_10 : BitVec 32 := 1#32
  let arg5 : BitVec 32 := Scf.iv c0_i32_8 c1_i32_10 k1_t3
  let c2048_i32 : BitVec 32 := 2048#32
  let v11 : BitVec 32 := Scalar.muli arg5 c2048_i32
  v11
def k1_off5 (k1_t3 : Fin k1_t3_loop.trips) : Fin 2 → Nat :=
  let c0_12 : Index := 0#32
  let c0_i32_8 : BitVec 32 := 0#32
  let c1_i32_10 : BitVec 32 := 1#32
  let arg5 : BitVec 32 := Scf.iv c0_i32_8 c1_i32_10 k1_t3
  let c2048_i32 : BitVec 32 := 2048#32
  let v11 : BitVec 32 := Scalar.muli arg5 c2048_i32
  let v12 : BitVec 32 := v11
  let v13 : Index := Scalar.indexCast v12
  ![0, v13.toNat]
def k1_off6 (k1_t3 : Fin k1_t3_loop.trips) : Fin 2 → Nat :=
  let c0_13 : Index := 0#32
  let c0_i32_8 : BitVec 32 := 0#32
  let c1_i32_10 : BitVec 32 := 1#32
  let arg5 : BitVec 32 := Scf.iv c0_i32_8 c1_i32_10 k1_t3
  let c2048_i32 : BitVec 32 := 2048#32
  let v11 : BitVec 32 := Scalar.muli arg5 c2048_i32
  let v12 : BitVec 32 := v11
  let v16 : Index := Scalar.indexCast v12
  ![0, v16.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S512x1_S256x1_0_0 : S512x1.Slices ![0, 0] S256x1
  slices_S512x1_S256x1_256_0 : S512x1.Slices ![256, 0] S256x1
  concatenates_S256x1_S256x1_S256x2_d1 : Shape.Concatenates [S256x1, S256x1] S256x2 1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1024x2_S1024x2_0_0 : ∀ a, (![0, 0] : Fin 2 → Nat) a + S1024x2.size a ≤ S1024x2.size a
  h_S1024x2 : 0 < S1024x2.numel
  slices_S8192x2_S8192x1_0_0 : S8192x2.Slices ![0, 0] S8192x1
  slices_S8192x2_S8192x1_0_1 : S8192x2.Slices ![0, 1] S8192x1
  shapeCasts_S8192x1_S1x8192 : S8192x1.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S1x2048 : 0 < S1x2048.numel
  shapeCasts_S1x2048_S1x2048 : S1x2048.ShapeCasts S1x2048
  h_S256x2048 : 0 < S256x2048.numel
  broadcasts_S256x1_S256x2048 : S256x1.Broadcasts S256x2048
  broadcasts_S1x2048_S256x2048 : S1x2048.Broadcasts S256x2048
  reduces_S256x2048_S256 : S256x2048.Reduces [1] S256
  shapeCasts_S256_S256x1 : S256.ShapeCasts S256x1
  dot_S1024x512_S512x256_S1024x256_1_0_0_1_n_n_wf : DotDims.WF S1024x512 S512x256 S1024x256 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S256x2.size a
  hwx0_2 : ∀ i : grid0.Coords, EltTy.bits .f32 = 32 ∨ (Rect.block (s := S256x2) S256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S8192x2.size a
  hwx0_3 : ∀ i : grid0.Coords, EltTy.bits .f32 = 32 ∨ (Rect.block (s := S8192x2) S1024x2.size (cc0_transform_3 i) (hinb0_3 i)).WholeWords (EltTy.packing .f32)
  hrank1 : 0 < grid1.rank
  k1_t1_ok : k1_t1_loop.OK
  k1_mult1_dvd : ∀ k1_t1 : Fin k1_t1_loop.trips, 2048 ∣ (k1_mult1 k1_t1).toNat
  k1_off1_inb : ∀ k1_t1 : Fin k1_t1_loop.trips, ∀ a, (k1_off1 k1_t1) a + S1x2048.size a ≤ S1x8192.size a
  k1_off2_inb : ∀ k1_t1 : Fin k1_t1_loop.trips, ∀ a, (k1_off2 k1_t1) a + S256x2048.size a ≤ S256x8192.size a
  k1_t2_ok : k1_t2_loop.OK
  k1_mult2_dvd : ∀ k1_t2 : Fin k1_t2_loop.trips, 2048 ∣ (k1_mult2 k1_t2).toNat
  k1_off3_inb : ∀ k1_t2 : Fin k1_t2_loop.trips, ∀ a, (k1_off3 k1_t2) a + S1x2048.size a ≤ S1x8192.size a
  k1_off4_inb : ∀ k1_t2 : Fin k1_t2_loop.trips, ∀ a, (k1_off4 k1_t2) a + S256x2048.size a ≤ S256x8192.size a
  k1_t3_ok : k1_t3_loop.OK
  k1_mult3_dvd : ∀ k1_t3 : Fin k1_t3_loop.trips, 2048 ∣ (k1_mult3 k1_t3).toNat
  k1_off5_inb : ∀ k1_t3 : Fin k1_t3_loop.trips, ∀ a, (k1_off5 k1_t3) a + S1x2048.size a ≤ S1x8192.size a
  k1_off6_inb : ∀ k1_t3 : Fin k1_t3_loop.trips, ∀ a, (k1_off6 k1_t3) a + S256x2048.size a ≤ S256x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S8192x1.size a
  hwx1_0 : ∀ i : grid1.Coords, EltTy.bits .f32 = 32 ∨ (Rect.block (s := S8192x1) S256x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8192.size a ≤ S8192x8192.size a
  hwx1_2 : ∀ i : grid1.Coords, EltTy.bits .i32 = 32 ∨ (Rect.block (s := S8192x8192) S256x8192.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x8192.size a ≤ S8192x8192.size a
  hwx1_3 : ∀ i : grid1.Coords, EltTy.bits .f32 = 32 ∨ (Rect.block (s := S8192x8192) S256x8192.size (cc1_transform_3 i) (hinb1_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S_ : Shape := ⟨0, ![]⟩
abbrev S8192x256 : Shape := ⟨2, ![8192, 256]⟩
abbrev S256x1 : Shape := ⟨2, ![256, 1]⟩
abbrev S8192x1 : Shape := ⟨2, ![8192, 1]⟩
abbrev S1x8192 : Shape := ⟨2, ![1, 8192]⟩
abbrev S8192 : Shape := ⟨1, ![8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S_, .f32⟩
  | .hbm, ⟨5, _⟩ => ⟨S8192x256, .f32⟩
  | .hbm, ⟨6, _⟩ => ⟨S256x1, .f32⟩
  | .hbm, ⟨7, _⟩ => ⟨S8192x1, .f32⟩
  | .hbm, ⟨8, _⟩ => ⟨S256x1, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S_, .f32⟩
  | .hbm, ⟨16, _⟩ => ⟨S8192x8192, .f32⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.KernelRun.lean ====
/-
  The idealized kernel program's run with its RESULT read back: every weakly fair execution of the two-region program
  terminates without a fault, the four argument arrays end as launched, and the result buffer ends at the contents the
  second region's write-backs leave in it — the fold of the attention region's blocks over its grid, from the arrays the
  region finds at its entry. This is the launch of the program's four segments (host glue, projection region, host glue,
  attention region) with one more unscoped buffer read against the final state.
-/
import proofs.«169571_j11716670784207_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the attention region's output array: at the region's exit it holds the fold of the region's
    write-backs. -/
theorem result_arr (c : Dev nD) :
    W4 m ρ c (Proc.devRef .tc main_v7) = (dat1 (V3 m ρ) c).arrAt 3 cfg1.N :=
  W4_arr m ρ c 3

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Run

end
-- ==== Proof.Spec.lean ====
/-
  The specification: graph-attention coefficients as ONE function of the four argument arrays, index by index,
  over the extended reals.

  With `h : [8192, 512]`, `W : [512, 256]`, `a : [512, 1]` and an integer adjacency `adj : [8192, 8192]`:
    proj i k   = ∑ f, h[i, f] · W[f, k]                       (the projected features)
    src i      = ∑ k, proj i k · a[k, 0]                       (source score: the top half of `a`)
    dst j      = ∑ k, proj j k · a[256 + k, 0]                 (destination score: the bottom half of `a`)
    leaky e    = e when e ≥ 0, else 0.2 · e                    (0.2 the float literal both programs spell)
    masked i j = leaky (src i + dst j) where adj[i, j] > 0, else -2³¹
    out i j    = exp (masked i j - M i) / ∑ j', exp (masked i j' - M i),   M i the maximum of row i of `masked`.
  A row's maximum is the fold of `max` from `⊥` over the row, the form both programs' reductions read as.
-/
import Idealize.ShloMosaic.PureOps.Ideal
import Idealize.ShloMosaic.PureOps.Ideal.Laws
import Idealize.ShloMosaic.Lib.ValueIdx

noncomputable section

namespace Cert.GatSpec

open Idealize.ShloMosaic Idealize.ShloMosaic.ValueIdx

/-- The argument and result arrays' index types, at literal extents. -/
abbrev SH : Shape := ⟨2, ![8192, 512]⟩
abbrev SW : Shape := ⟨2, ![512, 256]⟩
abbrev SA : Shape := ⟨2, ![512, 1]⟩
abbrev SN : Shape := ⟨2, ![8192, 8192]⟩

/-- The leaky rectifier with slope the float literal `0x3E4CCCCD` (the nearest float to 0.2). -/
def leaky (e : EReal) : EReal :=
  Scalar.select (FloatOps.cmpf (F := Ideal) (φ := .f32) .oge e (Ideal.ofBits .f32 0x00000000#32)) e (Ideal.ofBits .f32 0x3E4CCCCD#32 * e)

/-- The stand-in for "no edge": the float -2³¹. -/
def negPad : EReal := Ideal.ofBits .f32 0xCF000000#32

/-- Projected features: row `i` of `h` against column `k` of `W`. -/
def proj (h : SH.Idx → EReal) (W : SW.Idx → EReal) (i : Fin 8192) (k : Fin 256) : EReal :=
  ∑ f : Fin 512, h (ix2 i f) * W (ix2 f k)

/-- Row `k` of the top half of `a`. -/
abbrev aTop (a : SA.Idx → EReal) (k : Fin 256) : EReal := a (ix2 (⟨k.val, by omega⟩ : Fin 512) (0 : Fin 1))
/-- Row `k` of the bottom half of `a`. -/
abbrev aBot (a : SA.Idx → EReal) (k : Fin 256) : EReal := a (ix2 (⟨256 + k.val, by omega⟩ : Fin 512) (0 : Fin 1))

/-- The source score of node `i`. -/
def src (h : SH.Idx → EReal) (W : SW.Idx → EReal) (a : SA.Idx → EReal) (i : Fin 8192) : EReal :=
  ∑ k : Fin 256, proj h W i k * aTop a k

/-- The destination score of node `j`. -/
def dst (h : SH.Idx → EReal) (W : SW.Idx → EReal) (a : SA.Idx → EReal) (j : Fin 8192) : EReal :=
  ∑ k : Fin 256, proj h W j k * aBot a k

/-- The masked score of the pair `(i, j)`, from the two score vectors. -/
def masked (s1 s2 : Fin 8192 → EReal) (adj : SN.Idx → BitVec 32) (i j : Fin 8192) : EReal :=
  Scalar.select (IntOp.cmpi .sgt (adj (ix2 i j)) 0#32) (leaky (s1 i + s2 j)) negPad

/-- A row's maximum: the fold of `max` from `⊥`. -/
def rowMax (x : Fin 8192 → EReal) : EReal := (Finset.univ : Finset (Fin 8192)).fold max ⊥ x

/-- A row's normaliser: the sum of the exponentials of the row shifted by its maximum. -/
def rowSum (x : Fin 8192 → EReal) : EReal := ∑ j : Fin 8192, Ideal.exp (x j - rowMax x)

/-- The softmax of a row at a column. -/
def softmaxRow (x : Fin 8192 → EReal) (j : Fin 8192) : EReal :=
  Ideal.div (Ideal.exp (x j - rowMax x)) (rowSum x)

/-- The attention coefficient of the pair `(i, j)` from the two score vectors and the adjacency. -/
def att (s1 s2 : Fin 8192 → EReal) (adj : SN.Idx → BitVec 32) (i j : Fin 8192) : EReal :=
  softmaxRow (masked s1 s2 adj i) j

/-- The whole result array as one function of the argument arrays. -/
def out (h : SH.Idx → EReal) (adj : SN.Idx → BitVec 32) (W : SW.Idx → EReal) (a : SA.Idx → EReal) : SN.Idx → EReal :=
  fun y => att (src h W a) (dst h W a) adj (y 0) (y 1)

end Cert.GatSpec

end
-- ==== Proof.RefRun.lean ====
/-
  The reference program, run and read.

  The reference computes graph-attention coefficients with whole-array operations: the projection `h · W`; the two
  score columns, the projection against the top and the bottom half of `a`; their outer sum `src i + dst j` (a column
  laid along the columns plus a transposed column laid along the rows); the leaky rectifier; the adjacency mask with
  `-2³¹` where there is no edge; and a row softmax taken as: the row maximum (a fold of `max` from `-∞`, joined once
  more with `-∞`), the exponentials of the shifted row, their row sum from `0`, the quotient.

  Three things are proved here.
  * The program is a straight line of 37 array operations (the three functions it calls contribute their operations in
    place), so every execution ends with the result array at the operations' composed term `refTerm` of the four
    argument arrays, and leaves the arguments as they were. This holds for every interpretation of the float values.
  * At the extended reals each stage of `refTerm` is read at an index: a product is the sum over its one contracted
    axis; a slice, a transpose and a broadcast move the index; a reduction over the second axis is a fold, or a sum,
    over `Fin 8192`; `max ⊥ z = z` and `0 + z = z` remove the initial values. Index by index `refTerm` is the
    specification's function `Cert.GatSpec.out` of the four arguments.
  * Together: every execution of the reference ends with the result array equal to `Cert.GatSpec.out` of the launch
    contents of the arguments.
-/
import proofs.«169571_j11716670784207_2_alg».proof.Proof.Gen.ReferenceIdeal
import proofs.«169571_j11716670784207_2_alg».proof.Proof.Spec
import Idealize.ShloMosaic.Lib.StableHlo.Run
import Idealize.ShloMosaic.PureOps.Ideal.Laws
import Idealize.ShloMosaic.Lib.ValueIdx
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem Idealize.ShloMosaic.StableHlo

section Term
variable {F : FTy → Type} [FloatOps F]

/-- Contents types of the arrays that occur. -/
abbrev CH (F : FTy → Type) := (⟨S8192x512, .f32⟩ : BufTy).Contents (Elt F)
abbrev CW (F : FTy → Type) := (⟨S512x256, .f32⟩ : BufTy).Contents (Elt F)
abbrev CA (F : FTy → Type) := (⟨S512x1, .f32⟩ : BufTy).Contents (Elt F)
abbrev CAdj (F : FTy → Type) := (⟨S8192x8192, .i32⟩ : BufTy).Contents (Elt F)
abbrev CN (F : FTy → Type) := (⟨S8192x8192, .f32⟩ : BufTy).Contents (Elt F)
abbrev CP (F : FTy → Type) := (⟨S8192x256, .f32⟩ : BufTy).Contents (Elt F)
abbrev CCol (F : FTy → Type) := (⟨S8192x1, .f32⟩ : BufTy).Contents (Elt F)
abbrev CVec (F : FTy → Type) := (⟨S8192, .f32⟩ : BufTy).Contents (Elt F)

/-- The projected features `h · W`. -/
def tProj (h : CH F) (W : CW F) : CP F :=
  Host.dotGeneral dot_S8192x512_S512x256_S8192x256_1_0_0_1_n_n none h W

/-- The source scores: the projection against the top half of `a`. -/
def tSrc (h : CH F) (W : CW F) (a : CA F) : CCol F :=
  Host.dotGeneral dot_S8192x256_S256x1_S8192x1_1_0_0_1_n_n none (tProj h W)
    (extractStridedSlice S256x1 ![0, 0] a slices_S512x1_S256x1_0_0)

/-- The destination scores: the projection against the bottom half of `a`. -/
def tDst (h : CH F) (W : CW F) (a : CA F) : CCol F :=
  Host.dotGeneral dot_S8192x256_S256x1_S8192x1_1_0_0_1_n_n none (tProj h W)
    (extractStridedSlice S256x1 ![256, 0] a slices_S512x1_S256x1_256_0)

/-- The pair scores `src i + dst j`: a column broadcast along rows plus a transposed column broadcast along columns. -/
def tPair (h : CH F) (W : CW F) (a : CA F) : CN F :=
  addf (broadcastInDim S8192x8192 ![0, 1] bcast_S8192x1_S8192x8192_0_1 (tSrc h W a))
    (broadcastInDim S8192x8192 ![0, 1] bcast_S1x8192_S8192x8192_0_1
      (transpose S1x8192 [1, 0] (tDst h W a) transposes_S8192x1_S1x8192_1_0))

/-- The leaky rectifier, elementwise: `e` where `e ≥ 0`, else `0.2 · e`. -/
def tLeaky (e : CN F) : CN F :=
  select (cmpf .oge e (broadcastInDim S8192x8192 ![] bcast_S_S8192x8192 (constant S_ .f32 0x00000000#32)))
    e (mulf (broadcastInDim S8192x8192 ![] bcast_S_S8192x8192 (id (constant S_ .f32 0x3E4CCCCD#32))) e)

/-- The mask: the score where the adjacency is positive, else the stand-in `-2³¹`. -/
def tMasked (adj : CAdj F) (e : CN F) : CN F :=
  select (cmpi .sgt adj (broadcastInDim S8192x8192 ![] bcast_S_S8192x8192 (constantI S_ 32 0#32)))
    e (broadcastInDim S8192x8192 ![] bcast_S_S8192x8192 (constant S_ .f32 0xCF000000#32))

/-- Each row's maximum (joined once more with `-∞`, as the program does). -/
def tMax (x : CN F) : CVec F :=
  maximumf (broadcastInDim S8192 ![] bcast_S_S8192 (constant S_ .f32 0xFF800000#32))
    (Host.reduce FloatOps.maximumf x (constant S_ .f32 0xFF800000#32) reducesTo_S8192x8192_S8192_d1 h_S_)

/-- The exponentials of the rows shifted by their maxima. -/
def tExp (x : CN F) : CN F :=
  Host.exp (subf x (broadcastInDim S8192x8192 ![0, 1] bcast_S8192x1_S8192x8192_0_1
    (broadcastInDim S8192x1 ![0] bcast_S8192_S8192x1_0 (tMax x))))

/-- The row softmax. -/
def tSoft (x : CN F) : CN F :=
  Host.divf (tExp x) (broadcastInDim S8192x8192 ![0, 1] bcast_S8192x1_S8192x8192_0_1
    (broadcastInDim S8192x1 ![0] bcast_S8192_S8192x1_0
      (Host.reduceAdd (tExp x) (constant S_ .f32 0x00000000#32) reducesTo_S8192x8192_S8192_d1 h_S_)))

/-- The whole reference as one term of its four arguments. -/
def refTerm (h : CH F) (adj : CAdj F) (W : CW F) (a : CA F) : CN F :=
  tSoft (tMasked adj (tLeaky (tPair h W a)))

end Term

section Run
variable {F : FTy → Type} [FloatOps F]

/-- The program's 37 operations in order, the three called functions' operations in their calls' places. -/
abbrev ops : List (HloOp τ sig (Elt F)) :=
  [ nullary main_cst (constant S_ .f32 0xCF000000#32),
    binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg3 main_v1 ((extractStridedSlice S256x1 ![0, 0] · slices_S512x1_S256x1_0_0) : (⟨S512x1, .f32⟩ : BufTy).Contents (Elt F) → (⟨S256x1, .f32⟩ : BufTy).Contents (Elt F)),
    binary main_v0 main_v1 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg3 main_v3 ((extractStridedSlice S256x1 ![256, 0] · slices_S512x1_S256x1_256_0) : (⟨S512x1, .f32⟩ : BufTy).Contents (Elt F) → (⟨S256x1, .f32⟩ : BufTy).Contents (Elt F)),
    binary main_v0 main_v3 main_v4 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x3E4CCCCD#32),
    TRef.nullary main_call0.cst (constant S_ .f32 0x00000000#32),
    TRef.unary main_call0.cst main_call0.v0 (broadcastInDim S8192x8192 ![] bcast_S_S8192x8192),
    TRef.binary (TRef.of (T := ⟨S8192x8192, .f32⟩) main_v8) main_call0.v0 main_call0.v1 (cmpf .oge),
    TRef.unary (TRef.of (T := ⟨S_, .f32⟩) main_cst_0) main_call0.v2 id,
    TRef.unary main_call0.v2 main_call0.v3 (broadcastInDim S8192x8192 ![] bcast_S_S8192x8192),
    TRef.binary main_call0.v3 (TRef.of (T := ⟨S8192x8192, .f32⟩) main_v8) main_call0.v4 mulf,
    TRef.ternary main_call0.v1 (TRef.of (T := ⟨S8192x8192, .f32⟩) main_v8) main_call0.v4 main_call0.call0.v0 select,
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg1 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    TRef.unary (TRef.of (T := ⟨S_, .f32⟩) main_cst) main_call1.v0 (broadcastInDim S8192x8192 ![] bcast_S_S8192x8192),
    TRef.ternary (TRef.of (T := ⟨S8192x8192, .i1⟩) main_v11) (TRef.of (T := ⟨S8192x8192, .f32⟩) main_v9) main_call1.v0 main_call1.v1 select,
    nullary main_cst_1 (constant S_ .f32 0xFF800000#32),
    binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_3 (constant S_ .f32 0x00000000#32),
    binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)) ]

set_option maxRecDepth 1024 in
/-- The program is that straight line: the called functions' definitions opened at their calls, both sides are one
    chain of steps once sequencing is re-associated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., binary_bufs_sub .., unary_bufs_sub .., binary_bufs_sub ..,
    unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub ..,
    unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩

set_option maxRecDepth 8192 in
set_option maxHeartbeats 1000000 in
/-- What the result buffer holds after the line: the composed term of what the argument buffers held. -/
theorem after_v23 (V : Valuation τ sig (Elt F)) :
    after ops V (main_v23 : DevRef τ sig)
      = refTerm (V (main_arg0 : DevRef τ sig)) (V (main_arg1 : DevRef τ sig)) (V (main_arg2 : DevRef τ sig))
          (V (main_arg3 : DevRef τ sig)) := by
  after_results_simp
  unfold refTerm tSoft tExp tMax tMasked tLeaky tPair tDst tSrc tProj
  rfl

set_option maxRecDepth 8192 in
theorem after_arg0 (V : Valuation τ sig (Elt F)) : after ops V (main_arg0 : DevRef τ sig) = V (main_arg0 : DevRef τ sig) := by
  after_results_simp
set_option maxRecDepth 8192 in
theorem after_arg1 (V : Valuation τ sig (Elt F)) : after ops V (main_arg1 : DevRef τ sig) = V (main_arg1 : DevRef τ sig) := by
  after_results_simp
set_option maxRecDepth 8192 in
theorem after_arg2 (V : Valuation τ sig (Elt F)) : after ops V (main_arg2 : DevRef τ sig) = V (main_arg2 : DevRef τ sig) := by
  after_results_simp
set_option maxRecDepth 8192 in
theorem after_arg3 (V : Valuation τ sig (Elt F)) : after ops V (main_arg3 : DevRef τ sig) = V (main_arg3 : DevRef τ sig) := by
  after_results_simp

/-- For any float values, from any memory with zero counters: every weakly fair execution of the program terminates
    with the result buffer at the composed term of the arguments' launch contents, and the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v23)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (after_v23 _), (h c main_arg0).trans (after_arg0 _),
      (h c main_arg1).trans (after_arg1 _), (h c main_arg2).trans (after_arg2 _), (h c main_arg3).trans (after_arg3 _)⟩)
    (run_seq scopedRefs_eq scopedSems_eq defs main (fun _ => ops) main_eq (fun _ => ops_sub) m ρ)

end Run

section Value
open Cert.GatSpec Idealize.ShloMosaic.ValueIdx

/-- The single-axis reduction witness at the literal shapes (it names the inserted index). -/
theorem reduces_rows : S8192x8192.Reduces [1] S8192 := by decide

/-- Row `i` with column `k` put back is `(i, k)`. -/
theorem lift_row (i : Fin 8192) (k : Fin (S8192x8192.size 1)) :
    reduces_rows.lift (ix1 i) k = ix2 i (⟨k.val, k.isLt⟩ : Fin 8192) := by
  funext c; apply Fin.ext
  fin_cases c <;> rfl

/-- The float `0xFF800000` is `-∞`, the bottom of the extended reals. -/
theorem ofBits_negInf : Ideal.ofBits .f32 0xFF800000#32 = (⊥ : EReal) := by
  simp [Ideal.ofBits, Ideal.ieee]

/-- The first product at `(i, k)`: row `i` of `h` against column `k` of `W`. -/
theorem tProj_apply (h : FVec Ideal S8192x512 .f32) (W : FVec Ideal S512x256 .f32) (i : Fin 8192) (k : Fin 256) :
    tProj (F := Ideal) h W (ix2 i k) = proj h W i k := by
  unfold tProj proj
  simp only [Host.dotGeneral]
  rw [Ideal.dotGeneral_apply]
  rw [← Equiv.sum_comp (contrEquiv1 dot_S8192x512_S512x256_S8192x256_1_0_0_1_n_n 512 rfl rfl).symm]
  refine Finset.sum_congr rfl fun f _ => ?_
  congr 1
  · refine congrArg h (funext fun c => Fin.ext ?_)
    match c with
    | ⟨0, _⟩ => rfl
    | ⟨1, _⟩ =>
      exact (DotDims.lhsIdx_val_of_single _ rfl _ _).trans
        (contrEquiv1_symm_val dot_S8192x512_S512x256_S8192x256_1_0_0_1_n_n 512 rfl rfl f)
  · refine congrArg W (funext fun c => Fin.ext ?_)
    match c with
    | ⟨0, _⟩ =>
      exact (DotDims.rhsIdx_val_of_single _ rfl _ _).trans
        (contrEquiv1_symm_val dot_S8192x512_S512x256_S8192x256_1_0_0_1_n_n 512 rfl rfl f)
    | ⟨1, _⟩ => rfl

/-- The score products at `(i, 0)`: row `i` of the projection against a half of `a`, the half read through its slice. -/
theorem tSrc_apply (h : FVec Ideal S8192x512 .f32) (W : FVec Ideal S512x256 .f32) (a : FVec Ideal S512x1 .f32) (i : Fin 8192) :
    tSrc (F := Ideal) h W a (ix2 i (0 : Fin 1)) = src h W a i := by
  unfold tSrc src
  simp only [Host.dotGeneral]
  rw [Ideal.dotGeneral_apply]
  rw [← Equiv.sum_comp (contrEquiv1 dot_S8192x256_S256x1_S8192x1_1_0_0_1_n_n 256 rfl rfl).symm]
  refine Finset.sum_congr rfl fun k _ => ?_
  congr 1
  · refine Eq.trans (congrArg (tProj (F := Ideal) h W) (funext fun c => Fin.ext ?_)) (tProj_apply h W i k)
    match c with
    | ⟨0, _⟩ => rfl
    | ⟨1, _⟩ =>
      exact (DotDims.lhsIdx_val_of_single _ rfl _ _).trans
        (contrEquiv1_symm_val dot_S8192x256_S256x1_S8192x1_1_0_0_1_n_n 256 rfl rfl k)
  · refine Eq.trans (congrArg (extractStridedSlice S256x1 ![0, 0] a slices_S512x1_S256x1_0_0) (funext fun c => Fin.ext ?_))
      (slice2_axis0_apply 0 a slices_S512x1_S256x1_0_0 k (0 : Fin 1) (⟨k.val, by omega⟩ : Fin 512) (Nat.zero_add _).symm)
    match c with
    | ⟨0, _⟩ =>
      exact (DotDims.rhsIdx_val_of_single _ rfl _ _).trans
        (contrEquiv1_symm_val dot_S8192x256_S256x1_S8192x1_1_0_0_1_n_n 256 rfl rfl k)
    | ⟨1, _⟩ => rfl

theorem tDst_apply (h : FVec Ideal S8192x512 .f32) (W : FVec Ideal S512x256 .f32) (a : FVec Ideal S512x1 .f32) (j : Fin 8192) :
    tDst (F := Ideal) h W a (ix2 j (0 : Fin 1)) = dst h W a j := by
  unfold tDst dst
  simp only [Host.dotGeneral]
  rw [Ideal.dotGeneral_apply]
  rw [← Equiv.sum_comp (contrEquiv1 dot_S8192x256_S256x1_S8192x1_1_0_0_1_n_n 256 rfl rfl).symm]
  refine Finset.sum_congr rfl fun k _ => ?_
  congr 1
  · refine Eq.trans (congrArg (tProj (F := Ideal) h W) (funext fun c => Fin.ext ?_)) (tProj_apply h W j k)
    match c with
    | ⟨0, _⟩ => rfl
    | ⟨1, _⟩ =>
      exact (DotDims.lhsIdx_val_of_single _ rfl _ _).trans
        (contrEquiv1_symm_val dot_S8192x256_S256x1_S8192x1_1_0_0_1_n_n 256 rfl rfl k)
  · refine Eq.trans (congrArg (extractStridedSlice S256x1 ![256, 0] a slices_S512x1_S256x1_256_0) (funext fun c => Fin.ext ?_))
      (slice2_axis0_apply 256 a slices_S512x1_S256x1_256_0 k (0 : Fin 1) (⟨256 + k.val, by omega⟩ : Fin 512) rfl)
    match c with
    | ⟨0, _⟩ =>
      exact (DotDims.rhsIdx_val_of_single _ rfl _ _).trans
        (contrEquiv1_symm_val dot_S8192x256_S256x1_S8192x1_1_0_0_1_n_n 256 rfl rfl k)
    | ⟨1, _⟩ => rfl

/-- A column laid along every column index: at `(i, j)` it is the column at `(i, 0)`. -/
theorem bcast_col_apply {α : Type} (x : S8192x1.Idx → α) (i j : Fin 8192) :
    broadcastInDim S8192x8192 ![0, 1] bcast_S8192x1_S8192x8192_0_1 x (ix2 i j) = x (ix2 i (0 : Fin 1)) :=
  broadcastInDim_apply _ _ x _ _ fun c => match c with | ⟨0, _⟩ => rfl | ⟨1, _⟩ => rfl

/-- A row laid along every row index: at `(i, j)` it is the row at `(0, j)`. -/
theorem bcast_row_apply {α : Type} (x : S1x8192.Idx → α) (i j : Fin 8192) :
    broadcastInDim S8192x8192 ![0, 1] bcast_S1x8192_S8192x8192_0_1 x (ix2 i j) = x (ix2 (0 : Fin 1) j) :=
  broadcastInDim_apply _ _ x _ _ fun c => match c with | ⟨0, _⟩ => rfl | ⟨1, _⟩ => rfl

/-- A vector as a column: at `(i, 0)` it is the vector at `i`. -/
theorem bcast_vec_col_apply {α : Type} (x : S8192.Idx → α) (i : Fin 8192) :
    broadcastInDim S8192x1 ![0] bcast_S8192_S8192x1_0 x (ix2 i (0 : Fin 1)) = x (ix1 i) :=
  broadcastInDim_apply _ _ x _ _ fun c => match c with | ⟨0, _⟩ => rfl

/-- The pair scores at `(i, j)`. -/
theorem tPair_apply (h : FVec Ideal S8192x512 .f32) (W : FVec Ideal S512x256 .f32) (a : FVec Ideal S512x1 .f32) (i j : Fin 8192) :
    tPair (F := Ideal) h W a (ix2 i j) = src h W a i + dst h W a j := by
  unfold tPair
  rw [addf_apply, bcast_col_apply, bcast_row_apply, tSrc_apply]
  rw [transpose_ix2_apply (tDst (F := Ideal) h W a) transposes_S8192x1_S1x8192_1_0 (0 : Fin 1) j, tDst_apply]

/-- The rectifier is elementwise. -/
theorem tLeaky_apply (e : FVec Ideal S8192x8192 .f32) (y : S8192x8192.Idx) : tLeaky (F := Ideal) e y = leaky (e y) := rfl

/-- The mask is elementwise. -/
theorem tMasked_apply (adj : IVec S8192x8192 32) (e : FVec Ideal S8192x8192 .f32) (y : S8192x8192.Idx) :
    tMasked (F := Ideal) adj e y = Scalar.select (IntOp.cmpi .sgt (adj y) 0#32) (e y) negPad := rfl

/-- A row's maximum as the program takes it is the fold of `max` from `⊥` over the row. -/
theorem tMax_apply (x : FVec Ideal S8192x8192 .f32) (i : Fin 8192) :
    tMax (F := Ideal) x (ix1 i) = rowMax fun j => x (ix2 i j) := by
  unfold tMax rowMax
  rw [maximumf_apply]
  rw [Host.reduce_eq_fold_single (FloatOps.maximumf (F := Ideal) (φ := .f32)) x _ reducesTo_S8192x8192_S8192_d1 reduces_rows h_S_ (ix1 i)]
  have hf : (x ∘ reduces_rows.lift (ix1 i)) = fun k : Fin 8192 => x (ix2 i k) :=
    funext fun k => congrArg x (lift_row i k)
  have hb : (broadcastInDim S8192 ![] bcast_S_S8192 (constant (F := Ideal) S_ .f32 0xFF800000#32)) (ix1 i) = (⊥ : EReal) :=
    ofBits_negInf
  have hi : (constant (F := Ideal) S_ .f32 0xFF800000#32) (Shape.Idx.first h_S_) = (⊥ : EReal) := ofBits_negInf
  rw [hb, hi]
  refine (max_eq_right bot_le).trans ?_
  exact congrArg (fun f => Finset.fold max (⊥ : EReal) f (Finset.univ : Finset (Fin 8192))) hf

/-- The shifted exponentials at `(i, j)`. -/
theorem tExp_apply (x : FVec Ideal S8192x8192 .f32) (i j : Fin 8192) :
    tExp (F := Ideal) x (ix2 i j) = Ideal.exp (x (ix2 i j) - rowMax fun j' => x (ix2 i j')) := by
  unfold tExp Host.exp
  rw [Ideal.hostUnary_exp_def, subf_apply, bcast_col_apply, bcast_vec_col_apply, tMax_apply]

/-- The softmax at `(i, j)`. -/
theorem tSoft_apply (x : FVec Ideal S8192x8192 .f32) (i j : Fin 8192) :
    tSoft (F := Ideal) x (ix2 i j) = softmaxRow (fun j' => x (ix2 i j')) j := by
  unfold tSoft softmaxRow rowSum Host.divf Host.reduceAdd
  rw [Ideal.hostDivf_def, tExp_apply, bcast_col_apply, bcast_vec_col_apply, Ideal.hostReduceAdd_def,
    Ideal.hostReduceAdd_single reducesTo_S8192x8192_S8192_d1 reduces_rows]
  have hz : (constant (F := Ideal) S_ .f32 0x00000000#32) (Shape.Idx.first h_S_) = (0 : EReal) := Ideal.ofBits_zero_f32
  rw [hz, zero_add]
  congr 1
  exact Finset.sum_congr rfl fun k _ => (congrArg (tExp (F := Ideal) x) (lift_row i k)).trans (tExp_apply x i k)

/-- The composed term is the specification's function of the four arguments. -/
theorem refTerm_eq (h : FVec Ideal S8192x512 .f32) (adj : IVec S8192x8192 32) (W : FVec Ideal S512x256 .f32) (a : FVec Ideal S512x1 .f32) :
    refTerm (F := Ideal) h adj W a = Cert.GatSpec.out h adj W a := by
  funext y
  obtain ⟨i, j, rfl⟩ : ∃ (i j : Fin 8192), y = ix2 i j := ⟨y 0, y 1, eq_ix2 y⟩
  unfold refTerm Cert.GatSpec.out att
  rw [tSoft_apply]
  congr 1
  funext j'
  rw [tMasked_apply, tLeaky_apply, tPair_apply]
  rfl

end Value

section Ideal

/-- At the extended reals, from any memory with zero counters: every weakly fair execution of the reference terminates
    with the result array the specification's function of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
          = Cert.GatSpec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (refTerm_eq _ _ _ _), (h c).2⟩) (run_term m ρ)

end Ideal

end Cert.ReferenceIdeal.RefValue

end
-- ==== Proof.GatBody.lean ====
/-
  The attention body's arithmetic read at an index, at the extended reals.
  One grid point holds 256 rows; the 8192 columns are walked in four chunks of 2048. For a row `r` of the block and a
  column `q` of a chunk, the chunk's masked score is `leaky (x0[r] + a[q])` where the adjacency word is positive and
  -2³¹ elsewhere. A trip of the first loop folds the chunk's row maxima into the carried maximum; a trip of the second
  adds the chunk's row sums of `exp (score - M)`; a trip of the third stores `exp (score - M) · (1 / l)`.
-/
import proofs.«169571_j11716670784207_2_alg».proof.Proof.Gen.KernelIdeal.Skeleton
import proofs.«169571_j11716670784207_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GatBody

open Idealize.ShloMosaic Idealize.ShloMosaic.ValueIdx
open Cert.KernelIdeal Cert.KernelIdeal.Gen Cert.GatSpec

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The masked score of row `r` of the block against column `q` of a chunk. -/
def chunk (x0 : S256x1.Idx → EReal) (a : S1x2048.Idx → EReal) (b : S256x2048.Idx → BitVec 32) (r : Fin 256) (q : Fin 2048) : EReal :=
  Scalar.select (IntOp.cmpi .sgt (b (ix2 r q)) 0#32) (leaky (x0 (ix2 r (0 : Fin 1)) + a (ix2 (0 : Fin 1) q))) negPad

/-- The chunk's masked scores as the body computes them: one vector of the block's rows against the chunk's columns. -/
def mvec (x0 : Vec Ideal S256x1 .f32) (a : Vec Ideal S1x2048 .f32) (b : Vec Ideal S256x2048 .i32) : FVec Ideal S256x2048 .f32 :=
  select (cmpi CmpIPredicate.sgt b (broadcast S256x2048 0#32))
    (select
      (cmpf CmpFPredicate.oge
        (addf (broadcastTo S256x2048 (shapeCast S256x1 x0 shapeCasts_S256x1_S256x1) broadcasts_S256x1_S256x2048)
          (broadcastTo S256x2048 (shapeCast S1x2048 a shapeCasts_S1x2048_S1x2048) broadcasts_S1x2048_S256x2048))
        (broadcast S256x2048 (FloatOps.ofBits (F := Ideal) FTy.f32 0x00000000#32)))
      (addf (broadcastTo S256x2048 (shapeCast S256x1 x0 shapeCasts_S256x1_S256x1) broadcasts_S256x1_S256x2048)
        (broadcastTo S256x2048 (shapeCast S1x2048 a shapeCasts_S1x2048_S1x2048) broadcasts_S1x2048_S256x2048))
      (mulf (broadcast S256x2048 (FloatOps.ofBits (F := Ideal) FTy.f32 0x3E4CCCCD#32))
        (addf (broadcastTo S256x2048 (shapeCast S256x1 x0 shapeCasts_S256x1_S256x1) broadcasts_S256x1_S256x2048)
          (broadcastTo S256x2048 (shapeCast S1x2048 a shapeCasts_S1x2048_S1x2048) broadcasts_S1x2048_S256x2048))))
    (broadcast S256x2048 (FloatOps.ofBits (F := Ideal) FTy.f32 0xCF000000#32))

/-- The vector at `(r, q)` is the masked score of the pair. -/
theorem mvec_apply (x0 : Vec Ideal S256x1 .f32) (a : Vec Ideal S1x2048 .f32) (b : Vec Ideal S256x2048 .i32) (r : Fin 256) (q : Fin 2048) :
    mvec x0 a b (ix2 r q) = chunk x0 a b r q := by
  have e1 : broadcastTo S256x2048 (shapeCast S256x1 x0 shapeCasts_S256x1_S256x1) broadcasts_S256x1_S256x2048 (ix2 r q) = x0 (ix2 r (0 : Fin 1)) := by
    rw [shapeCast_self]; exact broadcastTo_a1_ab_apply x0 _ r q
  have e2 : broadcastTo S256x2048 (shapeCast S1x2048 a shapeCasts_S1x2048_S1x2048) broadcasts_S1x2048_S256x2048 (ix2 r q) = a (ix2 (0 : Fin 1) q) := by
    rw [shapeCast_self]; exact broadcastTo_1b_ab_apply a _ r q
  unfold mvec chunk leaky negPad
  simp only [select_apply, cmpf_apply, addf_apply, mulf_apply, broadcast_apply, e1, e2]
  rfl

/-- The index a reduction over the column axis reads: row `r` with the column put back. -/
theorem lift_eq (h : Shape.Reduces S256x2048 [1] S256) (r : Fin 256) (q : Fin 2048) : h.lift (ix1 r) q = ix2 r q := by
  funext ax; apply Fin.ext
  match ax with
  | ⟨0, _⟩ => rfl
  | ⟨1, _⟩ => rfl

/-- The first loop's yield: the carried maximum against the chunk's row maximum. -/
theorem pay3_eq (x0 : Vec Ideal S256x1 .f32) (acc : FVec Ideal S256x1 .f32) (a : Vec Ideal S1x2048 .f32) (b : Vec Ideal S256x2048 .i32) :
    k1_pay3 (F := Ideal) x0 acc a b
      = maximumf acc (shapeCast S256x1 (multiReduction FKind.maximumf [1] S256 (mvec x0 a b) (0xFF800000#32) reduces_S256x2048_S256 (.inl rfl) rfl) shapeCasts_S256_S256x1) := rfl

theorem pay3_apply (x0 : Vec Ideal S256x1 .f32) (acc : FVec Ideal S256x1 .f32) (a : Vec Ideal S1x2048 .f32) (b : Vec Ideal S256x2048 .i32) (r : Fin 256) :
    k1_pay3 (F := Ideal) x0 acc a b (ix2 r (0 : Fin 1))
      = max (acc (ix2 r (0 : Fin 1))) ((Finset.univ : Finset (Fin 2048)).fold max (Ideal.ofBits .f32 0xFF800000#32) (fun q => chunk x0 a b r q)) := by
  rw [pay3_eq]
  show max (acc (ix2 r (0 : Fin 1))) _ = _
  refine congrArg (max (acc (ix2 r (0 : Fin 1)))) ?_
  refine (shapeCast_a_a1_apply _ _ r 0).trans ?_
  refine (Ideal.multiReduction_maximumf_single (mvec x0 a b) _ reduces_S256x2048_S256 _ _ (ix1 r)).trans ?_
  exact congrArg (fun f : Fin 2048 → EReal => (Finset.univ : Finset (Fin 2048)).fold max (Ideal.ofBits .f32 0xFF800000#32) f)
    (funext fun q => (congrArg (mvec x0 a b) (lift_eq reduces_S256x2048_S256 r q)).trans (mvec_apply x0 a b r q))

/-- The second loop's yield: the carried sum plus the chunk's row sum of the shifted exponentials. -/
theorem pay5_eq (x0 : Vec Ideal S256x1 .f32) (M acc : FVec Ideal S256x1 .f32) (a : Vec Ideal S1x2048 .f32) (b : Vec Ideal S256x2048 .i32) :
    k1_pay5 (F := Ideal) x0 M acc a b
      = addf acc (shapeCast S256x1 (multiReduction FKind.add [1] S256
          (exp (subf (mvec x0 a b) (broadcastTo S256x2048 M broadcasts_S256x1_S256x2048))) (0x00000000#32) reduces_S256x2048_S256 (.inl rfl) rfl) shapeCasts_S256_S256x1) := rfl

theorem pay5_apply (x0 : Vec Ideal S256x1 .f32) (M acc : FVec Ideal S256x1 .f32) (a : Vec Ideal S1x2048 .f32) (b : Vec Ideal S256x2048 .i32) (r : Fin 256) :
    k1_pay5 (F := Ideal) x0 M acc a b (ix2 r (0 : Fin 1))
      = acc (ix2 r (0 : Fin 1)) + ∑ q : Fin 2048, Ideal.exp (chunk x0 a b r q - M (ix2 r (0 : Fin 1))) := by
  rw [pay5_eq]
  show acc (ix2 r (0 : Fin 1)) + _ = _
  refine congrArg (fun z : EReal => acc (ix2 r (0 : Fin 1)) + z) ?_
  refine (shapeCast_a_a1_apply _ _ r 0).trans ?_
  refine (Ideal.multiReduction_add_single _ _ reduces_S256x2048_S256 _ _ (ix1 r)).trans ?_
  show ∑ q : Fin 2048, Ideal.exp (mvec x0 a b (reduces_S256x2048_S256.lift (ix1 r) q)
      - broadcastTo S256x2048 M broadcasts_S256x1_S256x2048 (reduces_S256x2048_S256.lift (ix1 r) q)) = _
  refine Finset.sum_congr rfl fun q _ => ?_
  have e : reduces_S256x2048_S256.lift (ix1 r) q = ix2 r q := lift_eq _ r q
  rw [e, mvec_apply, broadcastTo_a1_ab_apply]

/-- The third loop's store: the shifted exponential times the reciprocal of the row's normaliser. -/
theorem pay6_eq (x0 : Vec Ideal S256x1 .f32) (M Lr : FVec Ideal S256x1 .f32) (a : Vec Ideal S1x2048 .f32) (b : Vec Ideal S256x2048 .i32) :
    k1_pay6 (F := Ideal) x0 M Lr a b
      = mulf (exp (subf (mvec x0 a b) (broadcastTo S256x2048 M broadcasts_S256x1_S256x2048)))
          (broadcastTo S256x2048 (divf (broadcast S256x1 (FloatOps.ofBits (F := Ideal) FTy.f32 0x3F800000#32)) Lr) broadcasts_S256x1_S256x2048) := rfl

theorem pay6_apply (x0 : Vec Ideal S256x1 .f32) (M Lr : FVec Ideal S256x1 .f32) (a : Vec Ideal S1x2048 .f32) (b : Vec Ideal S256x2048 .i32) (r : Fin 256) (q : Fin 2048) :
    k1_pay6 (F := Ideal) x0 M Lr a b (ix2 r q)
      = Ideal.exp (chunk x0 a b r q - M (ix2 r (0 : Fin 1))) * Ideal.div (Ideal.ofBits .f32 0x3F800000#32) (Lr (ix2 r (0 : Fin 1))) := by
  rw [pay6_eq]
  show Ideal.exp (mvec x0 a b (ix2 r q) - broadcastTo S256x2048 M broadcasts_S256x1_S256x2048 (ix2 r q))
      * broadcastTo S256x2048 (divf (broadcast S256x1 (FloatOps.ofBits (F := Ideal) FTy.f32 0x3F800000#32)) Lr) broadcasts_S256x1_S256x2048 (ix2 r q) = _
  rw [mvec_apply, broadcastTo_a1_ab_apply, broadcastTo_a1_ab_apply]
  rfl

end Cert.KernelIdeal.GatBody

end
-- ==== Proof.SoftmaxLaws.lean ====
/-
  Pure laws of the row softmax over the extended reals.

  * A row of 8192 entries is four consecutive chunks of 2048: the fold of `max` from `⊥` over the row
    is the running maximum of the four chunk maxima, and the sum over the row is the running sum of the
    four chunk sums.  Both are regroupings along `j = 2048 · c + q`.
  * The float patterns of `-∞` and of `1` denote `⊥` and `1`.
  * `p · (1 / l) = p / l` whenever `l ≠ 0`: off zero the quotient is the product with the inverse.
  * For a row of reals the maximum is attained, so one exponential in the normaliser is `exp 0 = 1`, all
    are nonnegative, and the normaliser is at least `1`; in particular it is not zero.
  * Reals are closed under the operations that build the masked scores: the leaky rectifier, the choice
    between it and the finite padding value, and finite sums of products.
-/
import proofs.«169571_j11716670784207_2_alg».proof.Proof.Spec

noncomputable section

namespace Cert.GatLaws

open Cert.GatSpec Idealize.ShloMosaic

/-- Column `q` of chunk `c`. -/
abbrev col (c : Fin 4) (q : Fin 2048) : Fin 8192 := ⟨2048 * c.val + q.val, by omega⟩

/-- Every column is a column of exactly one chunk. -/
theorem exists_col (j : Fin 8192) : ∃ c q, j = col c q :=
  ⟨⟨j.val / 2048, by omega⟩, ⟨j.val % 2048, by omega⟩, Fin.ext (by simp only [col]; omega)⟩

/-! ### The maximum by chunks -/

/-- The maximum of one chunk: the fold of `max` from `⊥`. -/
def chunkMax (x : Fin 8192 → EReal) (c : Fin 4) : EReal :=
  (Finset.univ : Finset (Fin 2048)).fold max ⊥ (fun q => x (col c q))

theorem rowMax_eq_sup (x : Fin 8192 → EReal) : rowMax x = Finset.univ.sup x := rfl

theorem chunkMax_eq_sup (x : Fin 8192 → EReal) (c : Fin 4) :
    chunkMax x c = Finset.univ.sup (fun q => x (col c q)) := rfl

theorem le_rowMax (x : Fin 8192 → EReal) (j : Fin 8192) : x j ≤ rowMax x := by
  rw [rowMax_eq_sup]; exact Finset.le_sup (f := x) (Finset.mem_univ j)

theorem le_chunkMax (x : Fin 8192 → EReal) (c : Fin 4) (q : Fin 2048) : x (col c q) ≤ chunkMax x c := by
  rw [chunkMax_eq_sup]; exact Finset.le_sup (f := fun q => x (col c q)) (Finset.mem_univ q)

theorem chunkMax_le_rowMax (x : Fin 8192 → EReal) (c : Fin 4) : chunkMax x c ≤ rowMax x := by
  rw [chunkMax_eq_sup]; exact Finset.sup_le fun q _ => le_rowMax x _

/-- The running maximum of the four chunk maxima, started at `⊥`, is the row's maximum. -/
theorem rowMax_chunks (x : Fin 8192 → EReal) :
    max (max (max (max ⊥ (chunkMax x 0)) (chunkMax x 1)) (chunkMax x 2)) (chunkMax x 3) = rowMax x := by
  apply le_antisymm
  · exact max_le (max_le (max_le (max_le bot_le (chunkMax_le_rowMax x 0)) (chunkMax_le_rowMax x 1))
      (chunkMax_le_rowMax x 2)) (chunkMax_le_rowMax x 3)
  · rw [rowMax_eq_sup]
    refine Finset.sup_le fun j _ => ?_
    obtain ⟨c, q, rfl⟩ := exists_col j
    refine (le_chunkMax x c q).trans ?_
    fin_cases c
    · exact le_max_of_le_left (le_max_of_le_left (le_max_of_le_left (le_max_right _ _)))
    · exact le_max_of_le_left (le_max_of_le_left (le_max_right _ _))
    · exact le_max_of_le_left (le_max_right _ _)
    · exact le_max_right _ _

/-! ### The sum by chunks -/

/-- The sum of one chunk. -/
def chunkSum (f : Fin 8192 → EReal) (c : Fin 4) : EReal := ∑ q : Fin 2048, f (col c q)

/-- The running sum of the four chunk sums, started at `0`, is the sum over the row. -/
theorem sum_chunks (f : Fin 8192 → EReal) :
    (((0 + chunkSum f 0) + chunkSum f 1) + chunkSum f 2) + chunkSum f 3 = ∑ j : Fin 8192, f j := by
  have e : (∑ j : Fin 8192, f j) = ∑ p : Fin 4 × Fin 2048, f (col p.1 p.2) := by
    refine (Fintype.sum_equiv (finProdFinEquiv : Fin 4 × Fin 2048 ≃ Fin 8192) _ _ fun p => ?_).symm
    congr 1
    exact Fin.ext (by simp only [finProdFinEquiv_apply_val, col]; omega)
  rw [e, Fintype.sum_prod_type, Fin.sum_univ_four, zero_add]
  rfl

/-! ### Two float patterns -/

/-- The pattern of `-∞` denotes the bottom of the extended reals. -/
theorem bot_eq : Ideal.ofBits .f32 0xFF800000#32 = (⊥ : EReal) := by
  simp [Ideal.ofBits, Ideal.ieee]

/-- The pattern of `1.0` denotes `1`. -/
theorem one_eq : Ideal.ofBits .f32 0x3F800000#32 = (1 : EReal) := by
  simp [Ideal.ofBits, Ideal.ieee, -EReal.coe_mul]; norm_num

/-! ### Multiplying by a reciprocal -/

/-- Off zero, multiplying by the reciprocal is dividing. -/
theorem mul_one_div (p l : EReal) (hl : l ≠ 0) : p * Ideal.div 1 l = Ideal.div p l := by
  rw [Ideal.div, Ideal.div, if_neg hl, if_neg hl, one_mul]

/-! ### The normaliser of a real row is not zero -/

/-- The exponential is nonnegative at every extended real. -/
theorem exp_nonneg (x : EReal) : 0 ≤ Ideal.exp x := by
  induction x using EReal.rec with
  | bot => simp
  | coe r => rw [Ideal.exp_coe]; exact_mod_cast (Real.exp_pos r).le
  | top => simp

/-- The maximum of a row is one of its entries. -/
theorem exists_eq_rowMax (x : Fin 8192 → EReal) : ∃ j₀, rowMax x = x j₀ := by
  obtain ⟨j₀, -, hj₀⟩ :=
    Finset.exists_mem_eq_sup (Finset.univ : Finset (Fin 8192)) ⟨0, Finset.mem_univ _⟩ x
  exact ⟨j₀, hj₀⟩

/-- For a row of reals the entry that attains the maximum contributes `exp 0 = 1` to the normaliser and
    every other entry contributes something nonnegative: the normaliser is at least `1`. -/
theorem one_le_rowSum (x : Fin 8192 → EReal) (hx : ∀ j, ∃ r : ℝ, x j = (r : EReal)) : 1 ≤ rowSum x := by
  obtain ⟨j₀, hM⟩ := exists_eq_rowMax x
  obtain ⟨r, hr⟩ := hx j₀
  have h1 : Ideal.exp (x j₀ - rowMax x) = 1 := by
    rw [hM, hr, ← EReal.coe_sub, sub_self, Ideal.exp_coe, Real.exp_zero, EReal.coe_one]
  have hle : Ideal.exp (x j₀ - rowMax x) ≤ rowSum x :=
    Finset.single_le_sum (f := fun j => Ideal.exp (x j - rowMax x)) (fun j _ => exp_nonneg _)
      (Finset.mem_univ j₀)
  rwa [h1] at hle

theorem rowSum_ne_zero (x : Fin 8192 → EReal) (hx : ∀ j, ∃ r : ℝ, x j = (r : EReal)) : rowSum x ≠ 0 :=
  (lt_of_lt_of_le zero_lt_one (one_le_rowSum x hx)).ne'

/-! ### Reals are closed under the operations that build the scores -/

/-- A pattern whose exponent field is not all ones denotes a real. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- The slope of the leaky rectifier is a real. -/
theorem slope_real : ∃ r : ℝ, Ideal.ofBits .f32 0x3E4CCCCD#32 = (r : EReal) :=
  ieee_real 8 23 (0x3E4CCCCD#32) (by decide)

/-- The padding value is a real. -/
theorem negPad_real : ∃ r : ℝ, negPad = (r : EReal) :=
  ieee_real 8 23 (0xCF000000#32) (by decide)

theorem leaky_real (e : ℝ) : ∃ r : ℝ, leaky (e : EReal) = (r : EReal) := by
  obtain ⟨s, hs⟩ := slope_real
  unfold leaky Scalar.select
  split_ifs
  · exact ⟨e, rfl⟩
  · exact ⟨s * e, by rw [hs, EReal.coe_mul]⟩

theorem masked_real (s1 s2 : Fin 8192 → EReal) (adj : SN.Idx → BitVec 32) (i j : Fin 8192)
    (h1 : ∀ i, ∃ r : ℝ, s1 i = (r : EReal)) (h2 : ∀ j, ∃ r : ℝ, s2 j = (r : EReal)) :
    ∃ r : ℝ, masked s1 s2 adj i j = (r : EReal) := by
  obtain ⟨a, ha⟩ := h1 i
  obtain ⟨b, hb⟩ := h2 j
  unfold masked Scalar.select
  split_ifs
  · rw [ha, hb, ← EReal.coe_add]; exact leaky_real _
  · exact negPad_real

/-- A finite sum of reals is a real. -/
theorem sum_real {ι : Type} (s : Finset ι) (f : ι → EReal) (hf : ∀ i, ∃ r : ℝ, f i = (r : EReal)) :
    ∃ r : ℝ, ∑ i ∈ s, f i = (r : EReal) := by
  classical
  refine Finset.induction_on s ⟨0, by simp⟩ ?_
  intro a s ha ih
  obtain ⟨r, hr⟩ := ih
  obtain ⟨q, hq⟩ := hf a
  exact ⟨q + r, by rw [Finset.sum_insert ha, hr, hq, EReal.coe_add]⟩

/-- A product of reals is a real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem proj_real (h : SH.Idx → EReal) (W : SW.Idx → EReal)
    (hh : ∀ y, ∃ r : ℝ, h y = (r : EReal)) (hW : ∀ y, ∃ r : ℝ, W y = (r : EReal)) (i : Fin 8192) (k : Fin 256) :
    ∃ r : ℝ, proj h W i k = (r : EReal) :=
  sum_real _ _ fun _ => mul_real (hh _) (hW _)

theorem src_real (h : SH.Idx → EReal) (W : SW.Idx → EReal) (a : SA.Idx → EReal)
    (hh : ∀ y, ∃ r : ℝ, h y = (r : EReal)) (hW : ∀ y, ∃ r : ℝ, W y = (r : EReal))
    (ha : ∀ y, ∃ r : ℝ, a y = (r : EReal)) : ∀ i, ∃ r : ℝ, src h W a i = (r : EReal) :=
  fun i => sum_real _ _ fun k => mul_real (proj_real h W hh hW i k) (ha _)

theorem dst_real (h : SH.Idx → EReal) (W : SW.Idx → EReal) (a : SA.Idx → EReal)
    (hh : ∀ y, ∃ r : ℝ, h y = (r : EReal)) (hW : ∀ y, ∃ r : ℝ, W y = (r : EReal))
    (ha : ∀ y, ∃ r : ℝ, a y = (r : EReal)) : ∀ j, ∃ r : ℝ, dst h W a j = (r : EReal) :=
  fun j => sum_real _ _ fun k => mul_real (proj_real h W hh hW j k) (ha _)

end Cert.GatLaws

end
-- ==== Proof.GatRow.lean ====
/-
  A row of one block of the attention region, and what the region stores for it.
  `rowB x0 x1 x2 r` is row `r` of a block's masked scores against all 8192 columns, from the block's three loaded arrays
  (the rows' source scores, the destination scores, the rows' adjacency words); `kform x j` is the stored value for a
  row `x` at column `j`: the shifted exponential times the reciprocal of the row's normaliser.
-/
import proofs.«169571_j11716670784207_2_alg».proof.Proof.Spec

noncomputable section

namespace Cert.GatRow

open Idealize.ShloMosaic Idealize.ShloMosaic.ValueIdx Cert.GatSpec

/-- The masked scores of row `r` of a block against all 8192 columns. -/
def rowB (x0 : (⟨2, ![256, 1]⟩ : Shape).Idx → EReal) (x1 : (⟨2, ![1, 8192]⟩ : Shape).Idx → EReal) (x2 : (⟨2, ![256, 8192]⟩ : Shape).Idx → BitVec 32)
    (r : Fin 256) (j : Fin 8192) : EReal :=
  Scalar.select (IntOp.cmpi .sgt (x2 (ix2 r j)) 0#32) (leaky (x0 (ix2 r (0 : Fin 1)) + x1 (ix2 (0 : Fin 1) j))) negPad

/-- What the body stores for a row: the shifted exponential times the reciprocal of the normaliser. -/
def kform (x : Fin 8192 → EReal) (j : Fin 8192) : EReal :=
  Ideal.exp (x j - rowMax x) * Ideal.div (Ideal.ofBits .f32 0x3F800000#32) (rowSum x)

end Cert.GatRow

end
-- ==== Proof.GatTrips.lean ====
/-
  One grid point of the attention region, read as a function of the three blocks it loads.
  The body runs three counted loops of four trips over the 2048-wide chunks of the block's 8192 columns: the first
  carries the rows' running maximum, the second the rows' running sum of `exp (score - M)`, the third stores, chunk by
  chunk, `exp (score - M) · (1 / l)`. Each trip's yield is opened ONCE here and read through the chunk laws: the carried
  maximum after four trips is the row's maximum, the carried sum the row's normaliser, and the four stored chunks are the
  four column ranges of one function of the block's index.
-/
import proofs.«169571_j11716670784207_2_alg».proof.Proof.Gen.KernelIdeal.Frame
import proofs.«169571_j11716670784207_2_alg».proof.Proof.GatBody
import proofs.«169571_j11716670784207_2_alg».proof.Proof.SoftmaxLaws
import proofs.«169571_j11716670784207_2_alg».proof.Proof.GatRow

set_option maxRecDepth 16384

noncomputable section

namespace Cert.KernelIdeal.GatTrips

open Idealize.ShloMosaic Idealize.ShloMosaic.ValueIdx Idealize.ShloMosaic.TcCoe Idealize.SL.Sem
open Cert.KernelIdeal Cert.KernelIdeal.Gen Cert.KernelIdeal.GatBody Cert.GatSpec Cert.GatLaws Cert.GatRow

theorem trips1_eq : k1_t1_loop.trips = 4 := by decide +kernel
theorem trips2_eq : k1_t2_loop.trips = 4 := by decide +kernel
theorem trips3_eq : k1_t3_loop.trips = 4 := by decide +kernel

/-- A load through a whole memref of known contents reads the contents at the rectangle's indices. -/
theorem readAt_unread {S : Shape} {e : EltTy} (M : Memref sig .tc .vmem S e) (hM : M.IsWhole) (X : S.Idx → Elt Ideal e) (R : LoadRect S)
    (x : R.shape.Idx) : View.readAt (Elt Ideal) M.view R (hM.unread X) x = X (R.idx x) := by
  rw [View.readAt_apply, hM.read_unread]

section
variable (𝒱 : Variants) (c : Dev nD) (bd : Option 𝒱.V) (i : grid1.Coords) (arg1 : Memref sig .tc .vmem S256x1 .f32) (harg1 : arg1.IsWhole) (arg2 : Memref sig .tc .vmem S1x8192 .f32) (harg2 : arg2.IsWhole) (arg3 : Memref sig .tc .vmem S256x8192 .i32) (harg3 : arg3.IsWhole) (arg4 : Memref sig .tc .vmem S256x8192 .f32) (harg4 : arg4.IsWhole)
  (x0 : S256x1.Idx → EReal) (x1 : S1x8192.Idx → EReal) (x2 : S256x8192.Idx → BitVec 32)

/-- A chunk loaded at column offset 2048·k is the row at the chunk's columns. -/
theorem chunk_ld (offA offB : Fin 2 → Nat) (k : Fin 4) (hA : offA = ![0, 2048 * k.val]) (hB : offB = ![0, 2048 * k.val])
    (inbA : ∀ a, offA a + S1x2048.size a ≤ S1x8192.size a) (inbB : ∀ a, offB a + S256x2048.size a ≤ S256x8192.size a) (r : Fin 256) (q : Fin 2048) :
    chunk x0 (View.readAt (Elt Ideal) arg2.view (Rect.unit (s := S1x8192) offA S1x2048.size inbA).toLoadRect (harg2.unread x1))
        (View.readAt (Elt Ideal) arg3.view (Rect.unit (s := S256x8192) offB S256x2048.size inbB).toLoadRect (harg3.unread x2)) r q
      = rowB x0 x1 x2 r (col k q) := by
  subst hA hB
  have e1 : View.readAt (Elt Ideal) arg2.view (Rect.unit (s := S1x8192) ![0, 2048 * k.val] S1x2048.size inbA).toLoadRect (harg2.unread x1) (ix2 (0 : Fin 1) q)
      = x1 (ix2 (0 : Fin 1) (col k q)) := by
    refine (readAt_unread arg2 harg2 x1 _ _).trans (congrArg x1 (funext fun a => Fin.ext ?_))
    match a with
    | ⟨0, _⟩ => show 0 + 1 * 0 = 0; rfl
    | ⟨1, _⟩ => show 2048 * k.val + 1 * q.val = 2048 * k.val + q.val; omega
  have e2 : View.readAt (Elt Ideal) arg3.view (Rect.unit (s := S256x8192) ![0, 2048 * k.val] S256x2048.size inbB).toLoadRect (harg3.unread x2) (ix2 r q)
      = x2 (ix2 r (col k q)) := by
    refine (readAt_unread arg3 harg3 x2 _ _).trans (congrArg x2 (funext fun a => Fin.ext ?_))
    match a with
    | ⟨0, _⟩ => show 0 + 1 * r.val = r.val; omega
    | ⟨1, _⟩ => show 2048 * k.val + 1 * q.val = 2048 * k.val + q.val; omega
  unfold chunk rowB
  rw [e1, e2]

/-- The first loop's trip, opened: the carried maximum against the chunk at the trip's offset. -/
theorem tripR1_eq (v0 : Vec Ideal S256x1 .f32) (X2 : BufTy.Contents (Elt Ideal) arg2.view.ty) (X3 : BufTy.Contents (Elt Ideal) arg3.view.ty)
    (k : Fin k1_t1_loop.trips) (acc : FVec Ideal S256x1 .f32) :
    tripR_k1_t1 (F := Ideal) 𝒱 c bd i arg1 harg1 arg2 harg2 arg3 harg3 arg4 harg4 v0 X2 X3 k acc
      = k1_pay3 v0 acc (View.readAt (Elt Ideal) arg2.view (Rect.unit (s := S1x8192) (k1_off1 k) S1x2048.size (Gen.k1_off1_inb k)).toLoadRect X2)
          (View.readAt (Elt Ideal) arg3.view (Rect.unit (s := S256x8192) (k1_off2 k) S256x2048.size (Gen.k1_off2_inb k)).toLoadRect X3) := by
  unfold tripR_k1_t1 trip_k1_t1
  rfl

/-- The second loop's trip, opened. -/
theorem tripR2_eq (v0 : Vec Ideal S256x1 .f32) (v4 : FVec Ideal S256x1 .f32) (X2 : BufTy.Contents (Elt Ideal) arg2.view.ty) (X3 : BufTy.Contents (Elt Ideal) arg3.view.ty)
    (k : Fin k1_t2_loop.trips) (acc : FVec Ideal S256x1 .f32) :
    tripR_k1_t2 (F := Ideal) 𝒱 c bd i arg1 harg1 arg2 harg2 arg3 harg3 arg4 harg4 v0 v4 X2 X3 k acc
      = k1_pay5 v0 v4 acc (View.readAt (Elt Ideal) arg2.view (Rect.unit (s := S1x8192) (k1_off3 k) S1x2048.size (Gen.k1_off3_inb k)).toLoadRect X2)
          (View.readAt (Elt Ideal) arg3.view (Rect.unit (s := S256x8192) (k1_off4 k) S256x2048.size (Gen.k1_off4_inb k)).toLoadRect X3) := by
  unfold tripR_k1_t2 trip_k1_t2
  rfl

/-- The third loop's trip, opened: ONE store, at the trip's column offset, of the chunk's normalised exponentials. -/
theorem tripL3_eq (v0 : Vec Ideal S256x1 .f32) (v4 v7 : FVec Ideal S256x1 .f32) (X2 : BufTy.Contents (Elt Ideal) arg2.view.ty) (X3 : BufTy.Contents (Elt Ideal) arg3.view.ty)
    (k : Fin k1_t3_loop.trips) :
    tripL_k1_t3 (F := Ideal) 𝒱 c bd i arg1 harg1 arg2 harg2 arg3 harg3 arg4 harg4 v0 v4 v7 X2 X3 k
      = [⟨Rect.unit (s := S256x8192) (k1_off6 k) S256x2048.size (Gen.k1_off6_inb k),
          k1_pay6 v0 v4 v7 (View.readAt (Elt Ideal) arg2.view (Rect.unit (s := S1x8192) (k1_off5 k) S1x2048.size (Gen.k1_off5_inb k)).toLoadRect X2)
            (View.readAt (Elt Ideal) arg3.view (Rect.unit (s := S256x8192) (k1_off6 k) S256x2048.size (Gen.k1_off6_inb k)).toLoadRect X3)⟩] := by
  unfold tripL_k1_t3 trip_k1_t3
  rfl

/-! ## The three loops over their four trips -/

/-- A trip's chunk maximum is the row's maximum over the chunk's columns. -/
theorem fold1 (k : Fin k1_t1_loop.trips) (k' : Fin 4) (hk : k.val = k'.val) (r : Fin 256) :
    (Finset.univ : Finset (Fin 2048)).fold max (Ideal.ofBits .f32 0xFF800000#32)
        (fun q => chunk x0 (View.readAt (Elt Ideal) arg2.view (Rect.unit (s := S1x8192) (k1_off1 k) S1x2048.size (Gen.k1_off1_inb k)).toLoadRect (harg2.unread x1))
          (View.readAt (Elt Ideal) arg3.view (Rect.unit (s := S256x8192) (k1_off2 k) S256x2048.size (Gen.k1_off2_inb k)).toLoadRect (harg3.unread x2)) r q)
      = chunkMax (rowB x0 x1 x2 r) k' := by
  rw [bot_eq]
  unfold chunkMax
  refine congrArg (fun f : Fin 2048 → EReal => (Finset.univ : Finset (Fin 2048)).fold max ⊥ f) (funext fun q => ?_)
  exact chunk_ld arg2 harg2 arg3 harg3 x0 x1 x2 (k1_off1 k) (k1_off2 k) k' (by rw [k1_off1_eq, hk]) (by rw [k1_off2_eq, hk]) _ _ r q

/-- One trip of the first loop, at a row: the carried maximum against the chunk's. -/
theorem step1 (k : Fin k1_t1_loop.trips) (k' : Fin 4) (hk : k.val = k'.val) (acc : FVec Ideal S256x1 .f32) (r : Fin 256) :
    tripR_k1_t1 (F := Ideal) 𝒱 c bd i arg1 harg1 arg2 harg2 arg3 harg3 arg4 harg4 x0 (harg2.unread x1) (harg3.unread x2) k acc (ix2 r (0 : Fin 1))
      = max (acc (ix2 r (0 : Fin 1))) (chunkMax (rowB x0 x1 x2 r) k') := by
  rw [tripR1_eq, pay3_apply, fold1 arg2 harg2 arg3 harg3 x0 x1 x2 k k' hk r]

/-- After its four trips the first loop carries, at each row, the row's maximum. -/
theorem st1_apply (r : Fin 256) :
    st_k1_t1 (F := Ideal) 𝒱 c bd i arg1 harg1 arg2 harg2 arg3 harg3 arg4 harg4 x0 (harg2.unread x1) (harg3.unread x2) (k1_pay2 (F := Ideal)) k1_t1_loop.trips (ix2 r (0 : Fin 1))
      = rowMax (rowB x0 x1 x2 r) := by
  have h0 : 0 < k1_t1_loop.trips := by rw [trips1_eq]; omega
  have h1 : 1 < k1_t1_loop.trips := by rw [trips1_eq]; omega
  have h2 : 2 < k1_t1_loop.trips := by rw [trips1_eq]; omega
  have h3 : 3 < k1_t1_loop.trips := by rw [trips1_eq]; omega
  have e : st_k1_t1 (F := Ideal) 𝒱 c bd i arg1 harg1 arg2 harg2 arg3 harg3 arg4 harg4 x0 (harg2.unread x1) (harg3.unread x2) (k1_pay2 (F := Ideal)) k1_t1_loop.trips
      = st_k1_t1 (F := Ideal) 𝒱 c bd i arg1 harg1 arg2 harg2 arg3 harg3 arg4 harg4 x0 (harg2.unread x1) (harg3.unread x2) (k1_pay2 (F := Ideal)) 4 :=
    congrArg (st_k1_t1 (F := Ideal) 𝒱 c bd i arg1 harg1 arg2 harg2 arg3 harg3 arg4 harg4 x0 (harg2.unread x1) (harg3.unread x2) (k1_pay2 (F := Ideal))) trips1_eq
  have e4 := st_k1_t1_succ (F := Ideal) 𝒱 c bd i arg1 harg1 arg2 harg2 arg3 harg3 arg4 harg4 x0 (harg2.unread x1) (harg3.unread x2) (k1_pay2 (F := Ideal)) ⟨3, h3⟩
  have e3 := st_k1_t1_succ (F := Ideal) 𝒱 c bd i arg1 harg1 arg2 harg2 arg3 harg3 arg4 harg4 x0 (harg2.unread x1) (harg3.unread x2) (k1_pay2 (F := Ideal)) ⟨2, h2⟩
  have e2 := st_k1_t1_succ (F := Ideal) 𝒱 c bd i arg1 harg1 arg2 harg2 arg3 harg3 arg4 harg4 x0 (harg2.unread x1) (harg3.unread x2) (k1_pay2 (F := Ideal)) ⟨1, h1⟩
  have e1 := st_k1_t1_succ (F := Ideal) 𝒱 c bd i arg1 harg1 arg2 harg2 arg3 harg3 arg4 harg4 x0 (harg2.unread x1) (harg3.unread x2) (k1_pay2 (F := Ideal)) ⟨0, h0⟩
  rw [e]
  rw [show st_k1_t1 (F := Ideal) 𝒱 c bd i arg1 harg1 arg2 harg2 arg3 harg3 arg4 harg4 x0 (harg2.unread x1) (harg3.unread x2) (k1_pay2 (F := Ideal)) 4 = _ from e4,
    step1 𝒱 c bd i arg1 harg1 arg2 harg2 arg3 harg3 arg4 harg4 x0 x1 x2 ⟨3, h3⟩ 3 rfl]
  rw [show st_k1_t1 (F := Ideal) 𝒱 c bd i arg1 harg1 arg2 harg2 arg3 harg3 arg4 harg4 x0 (harg2.unread x1) (harg3.unread x2) (k1_pay2 (F := Ideal)) 3 = _ from e3,
    step1 𝒱 c bd i arg1 harg1 arg2 harg2 arg3 harg3 arg4 harg4 x0 x1 x2 ⟨2, h2⟩ 2 rfl]
  rw [show st_k1_t1 (F := Ideal) 𝒱 c bd i arg1 harg1 arg2 harg2 arg3 harg3 arg4 harg4 x0 (harg2.unread x1) (harg3.unread x2) (k1_pay2 (F := Ideal)) 2 = _ from e2,
    step1 𝒱 c bd i arg1 harg1 arg2 harg2 arg3 harg3 arg4 harg4 x0 x1 x2 ⟨1, h1⟩ 1 rfl]
  rw [show st_k1_t1 (F := Ideal) 𝒱 c bd i arg1 harg1 arg2 harg2 arg3 harg3 arg4 harg4 x0 (harg2.unread x1) (harg3.unread x2) (k1_pay2 (F := Ideal)) 1 = _ from e1,
    step1 𝒱 c bd i arg1 harg1 arg2 harg2 arg3 harg3 arg4 harg4 x0 x1 x2 ⟨0, h0⟩ 0 rfl]
  rw [st_k1_t1_zero]
  rw [show k1_pay2 (F := Ideal) (ix2 r (0 : Fin 1)) = (⊥ : EReal) from bot_eq]
  exact rowMax_chunks _

/-- One trip of the second loop, at a row: the carried sum plus the chunk's sum of shifted exponentials. -/
theorem step2 (v4 : FVec Ideal S256x1 .f32) (k : Fin k1_t2_loop.trips) (k' : Fin 4) (hk : k.val = k'.val) (acc : FVec Ideal S256x1 .f32) (r : Fin 256) :
    tripR_k1_t2 (F := Ideal) 𝒱 c bd i arg1 harg1 arg2 harg2 arg3 harg3 arg4 harg4 x0 v4 (harg2.unread x1) (harg3.unread x2) k acc (ix2 r (0 : Fin 1))
      = acc (ix2 r (0 : Fin 1)) + chunkSum (fun j => Ideal.exp (rowB x0 x1 x2 r j - v4 (ix2 r (0 : Fin 1)))) k' := by
  rw [tripR2_eq, pay5_apply]
  unfold chunkSum
  refine congrArg (fun z : EReal => acc (ix2 r (0 : Fin 1)) + z) (Finset.sum_congr rfl fun q _ => ?_)
  show Ideal.exp (_ - _) = Ideal.exp (rowB x0 x1 x2 r (col k' q) - _)
  rw [chunk_ld arg2 harg2 arg3 harg3 x0 x1 x2 (k1_off3 k) (k1_off4 k) k' (by rw [k1_off3_eq, hk]) (by rw [k1_off4_eq, hk]) _ _ r q]

/-- After its four trips the second loop carries, at each row, the row's normaliser. -/
theorem st2_apply (v4 : FVec Ideal S256x1 .f32) (r : Fin 256) (hv4 : v4 (ix2 r (0 : Fin 1)) = rowMax (rowB x0 x1 x2 r)) :
    st_k1_t2 (F := Ideal) 𝒱 c bd i arg1 harg1 arg2 harg2 arg3 harg3 arg4 harg4 x0 v4 (harg2.unread x1) (harg3.unread x2) (k1_pay4 (F := Ideal)) k1_t2_loop.trips (ix2 r (0 : Fin 1))
      = rowSum (rowB x0 x1 x2 r) := by
  have h0 : 0 < k1_t2_loop.trips := by rw [trips2_eq]; omega
  have h1 : 1 < k1_t2_loop.trips := by rw [trips2_eq]; omega
  have h2 : 2 < k1_t2_loop.trips := by rw [trips2_eq]; omega
  have h3 : 3 < k1_t2_loop.trips := by rw [trips2_eq]; omega
  have e : st_k1_t2 (F := Ideal) 𝒱 c bd i arg1 harg1 arg2 harg2 arg3 harg3 arg4 harg4 x0 v4 (harg2.unread x1) (harg3.unread x2) (k1_pay4 (F := Ideal)) k1_t2_loop.trips
      = st_k1_t2 (F := Ideal) 𝒱 c bd i arg1 harg1 arg2 harg2 arg3 harg3 arg4 harg4 x0 v4 (harg2.unread x1) (harg3.unread x2) (k1_pay4 (F := Ideal)) 4 :=
    congrArg (st_k1_t2 (F := Ideal) 𝒱 c bd i arg1 harg1 arg2 harg2 arg3 harg3 arg4 harg4 x0 v4 (harg2.unread x1) (harg3.unread x2) (k1_pay4 (F := Ideal))) trips2_eq
  have e4 := st_k1_t2_succ (F := Ideal) 𝒱 c bd i arg1 harg1 arg2 harg2 arg3 harg3 arg4 harg4 x0 v4 (harg2.unread x1) (harg3.unread x2) (k1_pay4 (F := Ideal)) ⟨3, h3⟩
  have e3 := st_k1_t2_succ (F := Ideal) 𝒱 c bd i arg1 harg1 arg2 harg2 arg3 harg3 arg4 harg4 x0 v4 (harg2.unread x1) (harg3.unread x2) (k1_pay4 (F := Ideal)) ⟨2, h2⟩
  have e2 := st_k1_t2_succ (F := Ideal) 𝒱 c bd i arg1 harg1 arg2 harg2 arg3 harg3 arg4 harg4 x0 v4 (harg2.unread x1) (harg3.unread x2) (k1_pay4 (F := Ideal)) ⟨1, h1⟩
  have e1 := st_k1_t2_succ (F := Ideal) 𝒱 c bd i arg1 harg1 arg2 harg2 arg3 harg3 arg4 harg4 x0 v4 (harg2.unread x1) (harg3.unread x2) (k1_pay4 (F := Ideal)) ⟨0, h0⟩
  rw [e]
  rw [show st_k1_t2 (F := Ideal) 𝒱 c bd i arg1 harg1 arg2 harg2 arg3 harg3 arg4 harg4 x0 v4 (harg2.unread x1) (harg3.unread x2) (k1_pay4 (F := Ideal)) 4 = _ from e4,
    step2 𝒱 c bd i arg1 harg1 arg2 harg2 arg3 harg3 arg4 harg4 x0 x1 x2 v4 ⟨3, h3⟩ 3 rfl]
  rw [show st_k1_t2 (F := Ideal) 𝒱 c bd i arg1 harg1 arg2 harg2 arg3 harg3 arg4 harg4 x0 v4 (harg2.unread x1) (harg3.unread x2) (k1_pay4 (F := Ideal)) 3 = _ from e3,
    step2 𝒱 c bd i arg1 harg1 arg2 harg2 arg3 harg3 arg4 harg4 x0 x1 x2 v4 ⟨2, h2⟩ 2 rfl]
  rw [show st_k1_t2 (F := Ideal) 𝒱 c bd i arg1 harg1 arg2 harg2 arg3 harg3 arg4 harg4 x0 v4 (harg2.unread x1) (harg3.unread x2) (k1_pay4 (F := Ideal)) 2 = _ from e2,
    step2 𝒱 c bd i arg1 harg1 arg2 harg2 arg3 harg3 arg4 harg4 x0 x1 x2 v4 ⟨1, h1⟩ 1 rfl]
  rw [show st_k1_t2 (F := Ideal) 𝒱 c bd i arg1 harg1 arg2 harg2 arg3 harg3 arg4 harg4 x0 v4 (harg2.unread x1) (harg3.unread x2) (k1_pay4 (F := Ideal)) 1 = _ from e1,
    step2 𝒱 c bd i arg1 harg1 arg2 harg2 arg3 harg3 arg4 harg4 x0 x1 x2 v4 ⟨0, h0⟩ 0 rfl]
  rw [st_k1_t2_zero]
  rw [show k1_pay4 (F := Ideal) (ix2 r (0 : Fin 1)) = (0 : EReal) from Ideal.ofBits_zero_f32]
  rw [sum_chunks, hv4]
  rfl

/-! ## The stored pieces -/

/-- Every piece the third loop has written before trip `n` is some trip's one store. -/
theorem mem_pb (v0 : Vec Ideal S256x1 .f32) (v4 v7 : FVec Ideal S256x1 .f32) (X2 : BufTy.Contents (Elt Ideal) arg2.view.ty) (X3 : BufTy.Contents (Elt Ideal) arg3.view.ty) :
    ∀ n, n ≤ k1_t3_loop.trips → ∀ p ∈ pb_k1_t3 (F := Ideal) 𝒱 c bd i arg1 harg1 arg2 harg2 arg3 harg3 arg4 harg4 v0 v4 v7 X2 X3 n,
      ∃ k : Fin k1_t3_loop.trips, p ∈ tripL_k1_t3 (F := Ideal) 𝒱 c bd i arg1 harg1 arg2 harg2 arg3 harg3 arg4 harg4 v0 v4 v7 X2 X3 k
  | 0, _, p, hp => by
    rw [pb_k1_t3.eq_1] at hp
    exact absurd hp (List.not_mem_nil)
  | n + 1, hn, p, hp => by
    have hlt : n < k1_t3_loop.trips := hn
    have hs := pb_k1_t3_succ (F := Ideal) 𝒱 c bd i arg1 harg1 arg2 harg2 arg3 harg3 arg4 harg4 v0 v4 v7 X2 X3 ⟨n, hlt⟩
    rw [show pb_k1_t3 (F := Ideal) 𝒱 c bd i arg1 harg1 arg2 harg2 arg3 harg3 arg4 harg4 v0 v4 v7 X2 X3 (n + 1) = _ from hs] at hp
    rcases List.mem_append.mp hp with h | h
    · exact ⟨⟨n, hlt⟩, h⟩
    · exact mem_pb v0 v4 v7 X2 X3 n (Nat.le_of_lt hlt) p h

/-- The whole block loaded through the first memref is the block. -/
theorem v0_eq (inb : ∀ a, (![0, 0] : Fin 2 → Nat) a + S256x1.size a ≤ S256x1.size a) :
    View.readAt (Elt Ideal) arg1.view (Rect.unit (s := S256x1) ![0, 0] S256x1.size inb).toLoadRect (harg1.unread x0) = x0 :=
  funext fun x => (readAt_unread arg1 harg1 x0 _ x).trans (congrArg x0 (funext fun a => Fin.ext (by
    match a with
    | ⟨0, _⟩ => show 0 + 1 * (x 0).val = (x 0).val; omega
    | ⟨1, _⟩ => show 0 + 1 * (x 1).val = (x 1).val; omega)))

/-- A trip's stored chunk is the chunk's columns of one function of the block's index. -/
theorem piece_apply (v4 v7 : FVec Ideal S256x1 .f32) (hv4 : ∀ r, v4 (ix2 r (0 : Fin 1)) = rowMax (rowB x0 x1 x2 r))
    (hv7 : ∀ r, v7 (ix2 r (0 : Fin 1)) = rowSum (rowB x0 x1 x2 r)) (k : Fin k1_t3_loop.trips) (r : Fin 256) (q : Fin 2048) :
    k1_pay6 (F := Ideal) x0 v4 v7 (View.readAt (Elt Ideal) arg2.view (Rect.unit (s := S1x8192) (k1_off5 k) S1x2048.size (Gen.k1_off5_inb k)).toLoadRect (harg2.unread x1))
        (View.readAt (Elt Ideal) arg3.view (Rect.unit (s := S256x8192) (k1_off6 k) S256x2048.size (Gen.k1_off6_inb k)).toLoadRect (harg3.unread x2)) (ix2 r q)
      = kform (rowB x0 x1 x2 r) ⟨2048 * k.val + q.val, by have := k.isLt; have h := trips3_eq; omega⟩ := by
  have hk4 : k.val < 4 := by have := k.isLt; have h := trips3_eq; omega
  rw [pay6_apply, chunk_ld arg2 harg2 arg3 harg3 x0 x1 x2 (k1_off5 k) (k1_off6 k) ⟨k.val, hk4⟩ (by rw [k1_off5_eq]) (by rw [k1_off6_eq]) _ _ r q, hv4, hv7]
  rfl

end

/-! ## One point's run, read -/

/-- THE RUN OF ONE POINT: the pieces the body's third loop stores are, together, ONE function of the block's index —
    at row `r` and column `j` the shifted exponential of the row's masked score at `j` times the reciprocal of the
    row's normaliser. -/
theorem run_canon (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S256x8192 .i32) (harg3 : arg3.IsWhole) (arg4 : Memref sig .tc .vmem S256x8192 .f32) (harg4 : arg4.IsWhole)
    (x0 : S256x1.Idx → EReal) (x1 : S1x8192.Idx → EReal) (x2 : S256x8192.Idx → BitVec 32) :
    View.canon (kernelRun1_A (F := Ideal) c i arg1 harg1 arg2 harg2 arg3 harg3 arg4 harg4 x0 x1 x2).1
      = fun y : S256x8192.Idx => kform (rowB x0 x1 x2 (y 0)) (y 1) := by
  funext y
  refine View.canon_apply_of_pieces (fun y : S256x8192.Idx => kform (rowB x0 x1 x2 (y 0)) (y 1)) _ ?_ y
    (cover1_A_3 (F := Ideal) c i arg1 harg1 arg2 harg2 arg3 harg3 arg4 harg4 x0 x1 x2 y)
  intro p hp x
  unfold kernelRun1_A at hp
  dsimp only at hp
  rw [v0_eq arg1 harg1 x0] at hp
  obtain ⟨k, hk⟩ := mem_pb Variants.none c none i arg1 harg1 arg2 harg2 arg3 harg3 arg4 harg4 _ _ _ _ _ _ (le_refl _) p hp
  rw [tripL3_eq] at hk
  obtain rfl := List.mem_singleton.mp hk
  obtain ⟨r, q, rfl⟩ : ∃ (r : Fin 256) (q : Fin 2048), x = ix2 r q := ⟨x 0, x 1, eq_ix2 x⟩
  refine (piece_apply arg2 harg2 arg3 harg3 x0 x1 x2 _ _
    (fun r => st1_apply Variants.none c none i arg1 harg1 arg2 harg2 arg3 harg3 arg4 harg4 x0 x1 x2 r)
    (fun r => st2_apply Variants.none c none i arg1 harg1 arg2 harg2 arg3 harg3 arg4 harg4 x0 x1 x2 _ r (st1_apply Variants.none c none i arg1 harg1 arg2 harg2 arg3 harg3 arg4 harg4 x0 x1 x2 r)) k r q).trans ?_
  have hemb0 : ((Rect.unit (s := S256x8192) (k1_off6 k) S256x2048.size (Gen.k1_off6_inb k)).emb (ix2 r q)) 0 = r :=
    Fin.ext (by show (k1_off6 k) 0 + 1 * r.val = r.val; rw [k1_off6_eq]; show 0 + 1 * r.val = r.val; omega)
  have hemb1 : ((Rect.unit (s := S256x8192) (k1_off6 k) S256x2048.size (Gen.k1_off6_inb k)).emb (ix2 r q)) 1
      = (⟨2048 * k.val + q.val, by have := k.isLt; have h := trips3_eq; omega⟩ : Fin 8192) :=
    Fin.ext (by show (k1_off6 k) 1 + 1 * q.val = 2048 * k.val + q.val; rw [k1_off6_eq]; show 2048 * k.val + 1 * q.val = 2048 * k.val + q.val; omega)
  show _ = kform (rowB x0 x1 x2 (((Rect.unit (s := S256x8192) (k1_off6 k) S256x2048.size (Gen.k1_off6_inb k)).emb (ix2 r q)) 0))
    (((Rect.unit (s := S256x8192) (k1_off6 k) S256x2048.size (Gen.k1_off6_inb k)).emb (ix2 r q)) 1)
  rw [hemb0, hemb1]

end Cert.KernelIdeal.GatTrips

end
-- ==== Proof.GatBlocks.lean ====
/-
  The geometry of the second pipelined region: where each window's block at grid point `t` sits in its array.

  The grid has 32 points.  At point `t` the column of source scores, the adjacency and the result are read or
  written in blocks of 256 rows starting at row `256 · t`, all columns; the row of destination scores is read
  whole.  A block's coordinate in the array is the block index times the block size plus the coordinate inside
  the block, so an index `y` of the block at `t` is the array index `(256 · t + y₀, y₁)` (for the whole row:
  `(y₀, y₁)`).  Every row `r` of the result lies in the block of point `r / 256`, and every point writes its
  block back, so the blocks cover the result.
-/
import proofs.«169571_j11716670784207_2_alg».proof.Proof.Gen.KernelIdeal.Frame
import Idealize.ShloMosaic.Lib.ValueIdx
import Idealize.ShloMosaic.Lib.Pipeline.Value

noncomputable section

namespace Cert.KernelIdeal.GatBlocks

open Idealize.ShloMosaic Idealize.ShloMosaic.ValueIdx Cert.KernelIdeal Cert.KernelIdeal.Gen

/-- The four index maps over the grid: the three blocked windows are at block-row `t`, block-column `0`; the
    whole row is at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The column of source scores: block `t` is rows `256 · t …`, the one column. -/
theorem emb0_val (t : Fin cfg1.N) (y : ((cfg1.win 0).xblock (cfg1.grid.coords t)).Idx) :
    ((((cfg1.win 0).blk t).view.emb y) 0).val = 256 * t.val + (y 0).val
      ∧ ((((cfg1.win 0).blk t).view.emb y) 1).val = (y 1).val := by
  obtain ⟨e0, e1, -⟩ := idx_facts t
  constructor
  · show win1_0.index t (0 : Fin 2) * 256 + 1 * (y 0).val = _
    omega
  · show win1_0.index t (1 : Fin 2) * 1 + 1 * (y 1).val = _
    omega

/-- The row of destination scores: the block is the whole row. -/
theorem emb1_val (t : Fin cfg1.N) (y : ((cfg1.win 1).xblock (cfg1.grid.coords t)).Idx) :
    ((((cfg1.win 1).blk t).view.emb y) 0).val = (y 0).val
      ∧ ((((cfg1.win 1).blk t).view.emb y) 1).val = (y 1).val := by
  obtain ⟨-, -, e0, e1, -⟩ := idx_facts t
  constructor
  · show win1_1.index t (0 : Fin 2) * 1 + 1 * (y 0).val = _
    omega
  · show win1_1.index t (1 : Fin 2) * 8192 + 1 * (y 1).val = _
    omega

/-- The adjacency: block `t` is rows `256 · t …`, all columns. -/
theorem emb2_val (t : Fin cfg1.N) (y : ((cfg1.win 2).xblock (cfg1.grid.coords t)).Idx) :
    ((((cfg1.win 2).blk t).view.emb y) 0).val = 256 * t.val + (y 0).val
      ∧ ((((cfg1.win 2).blk t).view.emb y) 1).val = (y 1).val := by
  obtain ⟨-, -, -, -, e0, e1, -⟩ := idx_facts t
  constructor
  · show win1_2.index t (0 : Fin 2) * 256 + 1 * (y 0).val = _
    omega
  · show win1_2.index t (1 : Fin 2) * 8192 + 1 * (y 1).val = _
    omega

/-- The result: block `t` is rows `256 · t …`, all columns. -/
theorem emb3_val (t : Fin cfg1.N) (y : ((cfg1.win 3).xblock (cfg1.grid.coords t)).Idx) :
    ((((cfg1.win 3).blk t).view.emb y) 0).val = 256 * t.val + (y 0).val
      ∧ ((((cfg1.win 3).blk t).view.emb y) 1).val = (y 1).val := by
  obtain ⟨-, -, -, -, -, -, e0, e1⟩ := idx_facts t
  constructor
  · show win1_3.index t (0 : Fin 2) * 256 + 1 * (y 0).val = _
    omega
  · show win1_3.index t (1 : Fin 2) * 8192 + 1 * (y 1).val = _
    omega

/-- An index of the result is in point `t`'s block iff each coordinate is in the block's range on its axis. -/
theorem mem_blk3 (t : Fin cfg1.N) (i : S8192x8192.Idx) :
    i ∈ ((cfg1.win 3).blk t).view.set ↔
      ∀ a : Fin 2, win1_3.index t a * S256x8192.size a ≤ (i a).val
        ∧ (i a).val < win1_3.index t a * S256x8192.size a + S256x8192.size a := by
  show i ∈ ((View.whole main_v7).slice (win1_3.rect t)).set ↔ _
  rw [View.set_slice_whole, Rect.mem_set_unit]
  exact Iff.rfl

/-- Every index of the result is in the block of a point that writes back: row `r` in that of `r / 256`. -/
theorem cover3 : ∀ i : S8192x8192.Idx,
    ∃ t : Fin cfg1.N, (cfg1.win 3).flush t = true ∧ i ∈ ((cfg1.win 3).blk t).view.set := by
  intro i
  have hi0 : (i 0).val < 8192 := (i 0).isLt
  have hi1 : (i 1).val < 8192 := (i 1).isLt
  obtain ⟨t, ht⟩ : ∃ t : Fin cfg1.N, t.val = (i 0).val / 256 :=
    ⟨⟨(i 0).val / 256, by show _ < grid1.N; rw [N_1]; omega⟩, rfl⟩
  obtain ⟨-, -, -, -, -, -, e0, e1⟩ := idx_facts t
  refine ⟨t, flush1_3 t, ?_⟩
  rw [mem_blk3]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 8192 ≤ (i 1).val ∧ (i 1).val < win1_3.index t (1 : Fin 2) * 8192 + 8192
    omega

end Cert.KernelIdeal.GatBlocks

end
-- ==== Proof.GatValue.lean ====
/-
  The attention region's result array as one function of the arrays the region finds.

  At grid point `t` the body reads three blocks — rows `256 · t …` of the column of source scores, the whole row of
  destination scores, rows `256 · t …` of the adjacency — and, by hypothesis, stores at `(r, q)` of its block the
  normalised exponential of row `r` of the block's masked scores at column `q`.  Row `r` of the block's masked
  scores is row `256 · t + r` of the array's masked scores, because each block entry is the array entry at the
  block's offset; and entry `(r, q)` of the block written back lands at `(256 · t + r, q)` of the result.  So
  every point writes back its own block of one array-wide function, and since the blocks cover the result, the
  result is that function.
-/
import proofs.«169571_j11716670784207_2_alg».proof.Proof.Gen.KernelIdeal.Frame
import proofs.«169571_j11716670784207_2_alg».proof.Proof.GatBlocks
import proofs.«169571_j11716670784207_2_alg».proof.Proof.GatRow
import proofs.«169571_j11716670784207_2_alg».proof.Proof.Spec
import Idealize.ShloMosaic.Lib.Pipeline.Value
import Idealize.ShloMosaic.Lib.ValueIdx

noncomputable section

namespace Cert.KernelIdeal.GatValue

open Cert.KernelIdeal Cert.KernelIdeal.Gen Idealize.ShloMosaic Idealize.ShloMosaic.TcCoe Idealize.SL.Sem
open Idealize.ShloMosaic.ValueIdx Cert.KernelIdeal.GatBlocks
open Idealize.ShloMosaic.Pipeline (Dat)

variable (V : (c : Dev nD) → (b : Ref sig .tc) → Buf (Elt Ideal) ((c : Thread nD τ).loc b))

/-- The source scores the region finds, by node. -/
abbrev sSrc (c : Dev nD) : Fin 8192 → EReal := fun i => (V c main_v4 : S8192x1.Idx → EReal) (ix2 i (0 : Fin 1))
/-- The destination scores the region finds, by node. -/
abbrev sDst (c : Dev nD) : Fin 8192 → EReal := fun j => (V c main_v6 : S1x8192.Idx → EReal) (ix2 (0 : Fin 1) j)

/-- The array-wide function: the stored form of row `y 0` of the masked scores at column `y 1`. -/
abbrev G (c : Dev nD) : S8192x8192.Idx → EReal :=
  fun y => Cert.GatRow.kform (Cert.GatSpec.masked (sSrc V c) (sDst V c) (V c main_arg1 : S8192x8192.Idx → BitVec 32) (y 0)) (y 1)

/-- A block row is an array row. -/
theorem row_lt (t : Fin cfg1.N) (r : Fin 256) : 256 * t.val + r.val < 8192 := by
  have ht : t.val < grid1.N := t.isLt
  rw [N_1] at ht
  have hr : r.val < 256 := r.isLt
  omega

/-- Entry `r` of the block of source scores at point `t` is entry `256 · t + r` of the column. -/
theorem read0 (c : Dev nD) (t : Fin cfg1.N) (r : Fin 256) :
    iblk1 V c 0 t (ix2 r (0 : Fin 1)) = sSrc V c ⟨256 * t.val + r.val, row_lt t r⟩ := by
  unfold iblk1
  show V c main_v4 (((cfg1.win 0).blk t).view.emb (ix2 r (0 : Fin 1))) = V c main_v4 (ix2 ⟨256 * t.val + r.val, row_lt t r⟩ (0 : Fin 1))
  refine congrArg (V c main_v4) ?_
  funext a; apply Fin.ext
  match a with
  | ⟨0, _⟩ => exact (emb0_val t (ix2 r (0 : Fin 1))).1
  | ⟨1, _⟩ => exact (emb0_val t (ix2 r (0 : Fin 1))).2

/-- The block of destination scores is the whole row. -/
theorem read1 (c : Dev nD) (t : Fin cfg1.N) (j : Fin 8192) :
    iblk1 V c 1 t (ix2 (0 : Fin 1) j) = sDst V c j := by
  unfold iblk1
  show V c main_v6 (((cfg1.win 1).blk t).view.emb (ix2 (0 : Fin 1) j)) = V c main_v6 (ix2 (0 : Fin 1) j)
  refine congrArg (V c main_v6) ?_
  funext a; apply Fin.ext
  match a with
  | ⟨0, _⟩ => exact (emb1_val t (ix2 (0 : Fin 1) j)).1
  | ⟨1, _⟩ => exact (emb1_val t (ix2 (0 : Fin 1) j)).2

/-- Entry `(r, j)` of the adjacency block at point `t` is entry `(256 · t + r, j)` of the adjacency. -/
theorem read2 (c : Dev nD) (t : Fin cfg1.N) (r : Fin 256) (j : Fin 8192) :
    iblk1 V c 2 t (ix2 r j) = (V c main_arg1 : S8192x8192.Idx → BitVec 32) (ix2 ⟨256 * t.val + r.val, row_lt t r⟩ j) := by
  unfold iblk1
  show V c main_arg1 (((cfg1.win 2).blk t).view.emb (ix2 r j)) = V c main_arg1 (ix2 ⟨256 * t.val + r.val, row_lt t r⟩ j)
  refine congrArg (V c main_arg1) ?_
  funext a; apply Fin.ext
  match a with
  | ⟨0, _⟩ => exact (emb2_val t (ix2 r j)).1
  | ⟨1, _⟩ => exact (emb2_val t (ix2 r j)).2

/-- Row `r` of the block's masked scores at point `t` is row `256 · t + r` of the array's. -/
theorem rowB_eq (c : Dev nD) (t : Fin cfg1.N) (r : Fin 256) :
    Cert.GatRow.rowB (iblk1 V c 0 t) (iblk1 V c 1 t) (iblk1 V c 2 t) r
      = Cert.GatSpec.masked (sSrc V c) (sDst V c) (V c main_arg1 : S8192x8192.Idx → BitVec 32) ⟨256 * t.val + r.val, row_lt t r⟩ := by
  funext j
  unfold Cert.GatRow.rowB Cert.GatSpec.masked
  rw [read0 V c t r, read1 V c t j, read2 V c t r j]

/-! ### The body's run, taken as a hypothesis, and the array it leaves -/

section Region

variable (hrun : ∀ (c : Dev nD) (i : grid1.Coords) (arg1 : Memref sig .tc .vmem S256x1 .f32) (harg1 : arg1.IsWhole)
    (arg2 : Memref sig .tc .vmem S1x8192 .f32) (harg2 : arg2.IsWhole) (arg3 : Memref sig .tc .vmem S256x8192 .i32) (harg3 : arg3.IsWhole)
    (arg4 : Memref sig .tc .vmem S256x8192 .f32) (harg4 : arg4.IsWhole)
    (x0 : S256x1.Idx → EReal) (x1 : S1x8192.Idx → EReal) (x2 : S256x8192.Idx → BitVec 32),
      View.canon (kernelRun1_A (F := Ideal) c i arg1 harg1 arg2 harg2 arg3 harg3 arg4 harg4 x0 x1 x2).1
        = fun y : S256x8192.Idx => Cert.GatRow.kform (Cert.GatRow.rowB x0 x1 x2 (y 0)) (y 1))

include hrun

/-- What point `t` writes back is block `t` of the array-wide function. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold outsAt1 out1_A_3
  rw [View.read_writes_eq_canon _ _ _ (cover1_A_3 (F := Ideal) c (grid1.coords t) (ms1_0 t) (hs1_0 t) (ms1_1 t) (hs1_1 t) (ms1_2 t) (hs1_2 t) (ms1_3 t) (hs1_3 t) (iblk1 V c 0 t) (iblk1 V c 1 t) (iblk1 V c 2 t))]
  rw [hrun]
  funext j
  obtain ⟨h0, h1⟩ := emb3_val t j
  have hb : 256 * t.val + (j 0).val < 8192 := row_lt t (j 0)
  have e0 : ((((cfg1.win 3).blk t).view.emb j) 0 : Fin 8192) = ⟨256 * t.val + (j 0).val, hb⟩ := Fin.ext h0
  have e1 : ((((cfg1.win 3).blk t).view.emb j) 1 : Fin 8192) = (j 1 : Fin 8192) := Fin.ext h1
  show Cert.GatRow.kform (Cert.GatRow.rowB (iblk1 V c 0 t) (iblk1 V c 1 t) (iblk1 V c 2 t) (j 0)) (j 1)
    = Cert.GatRow.kform (Cert.GatSpec.masked (sSrc V c) (sDst V c) (V c main_arg1 : S8192x8192.Idx → BitVec 32)
        ((((cfg1.win 3).blk t).view.emb j) 0)) ((((cfg1.win 3).blk t).view.emb j) 1)
  rw [e0, e1]
  exact congrArg (fun x => Cert.GatRow.kform x (j 1)) (rowB_eq V c t (j 0))

/-- The region's result array: at `(i, j)` the stored form of row `i` of the masked scores at column `j`. -/
theorem region_value (c : Dev nD) :
    (dat1 (F := Ideal) V c).arrAt 3 cfg1.N
      = fun y : S8192x8192.Idx => Cert.GatRow.kform (Cert.GatSpec.masked
          (fun i : Fin 8192 => (V c main_v4 : S8192x1.Idx → EReal) (ix2 i (0 : Fin 1)))
          (fun j : Fin 8192 => (V c main_v6 : S1x8192.Idx → EReal) (ix2 (0 : Fin 1) j))
          (V c main_arg1 : S8192x8192.Idx → BitVec 32) (y 0)) (y 1) :=
  (dat1 (F := Ideal) V c).arrAt_eq_of_cover 3 (G V c) (fun t _ => flushed_eq V hrun c t) cover3

end Region

end Cert.KernelIdeal.GatValue

end
-- ==== Proof.ProjValue.lean ====
/-
  The projection stage and the host operations around it, read index by index over the extended reals.

  The first region multiplies each block of 1024 rows of `h : [8192, 512]` by `W : [512, 256]` and the product by the
  two-column array whose columns are the top and the bottom half of `a : [512, 1]`. With every format change the
  identity on extended reals, entry `(i, 0)` of what it writes is `∑ k, (∑ f, h[i, f] · W[f, k]) · a[k, 0]`, the source
  score of node `i`, and entry `(i, 1)` is the same sum against `a[256 + k, 0]`, the destination score. The eight
  blocks of rows tile the `[8192, 2]` result, so the array holds these two columns after the region; the slices and the
  reshape that follow hand column 0 on as an `[8192, 1]` array and column 1 as a `[1, 8192]` array. The adjacency
  array is written by nothing on the way.
-/
import proofs.«169571_j11716670784207_2_alg».proof.Proof.Spec
import proofs.«169571_j11716670784207_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.ProjValue

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## The two products at an index -/

/-- The dimension numbers of the first product, rows of `h` against columns of `W`. -/
abbrev D1 : DotDims S1024x512 S512x256 S1024x256 := dot_S1024x512_S512x256_S1024x256_1_0_0_1_n_n
/-- The dimension numbers of the second product, rows of the projection against the two halves of `a`. -/
abbrev D2 : DotDims S1024x256 S256x2 S1024x2 := dot_S1024x256_S256x2_S1024x2_1_0_0_1_n_n

/-- The contraction index of the first product is its one coordinate below 512, of the second below 256. -/
abbrev e1 : D1.contr.Idx ≃ Fin 512 := contrEquiv1 D1 512 rfl rfl
abbrev e2 : D2.contr.Idx ≃ Fin 256 := contrEquiv1 D2 256 rfl rfl

/-- The left operand of the first product at output `(p, k)` and contraction position `f` is entry `(p, f)`. -/
theorem lhs1 (p : Fin 1024) (k : Fin 256) (f : Fin 512) : D1.lhsIdx (ix2 p k) (e1.symm f) = ix2 p f := by
  funext a; apply Fin.ext
  match a with
  | ⟨0, _⟩ => simp [DotDims.lhsIdx, D1, dot_S1024x512_S512x256_S1024x256_1_0_0_1_n_n]; rfl
  | ⟨1, _⟩ => exact (D1.lhsIdx_val_of_single (cl := 1) rfl (ix2 p k) (e1.symm f)).trans (contrEquiv1_symm_val D1 512 rfl rfl f)

/-- Its right operand there is entry `(f, k)`. -/
theorem rhs1 (p : Fin 1024) (k : Fin 256) (f : Fin 512) : D1.rhsIdx (ix2 p k) (e1.symm f) = ix2 f k := by
  funext a; apply Fin.ext
  match a with
  | ⟨0, _⟩ => exact (D1.rhsIdx_val_of_single (cr := 0) rfl (ix2 p k) (e1.symm f)).trans (contrEquiv1_symm_val D1 512 rfl rfl f)
  | ⟨1, _⟩ => simp [DotDims.rhsIdx, D1, dot_S1024x512_S512x256_S1024x256_1_0_0_1_n_n]; rfl

/-- The left operand of the second product at output `(p, q)` and contraction position `k` is entry `(p, k)`. -/
theorem lhs2 (p : Fin 1024) (q : Fin 2) (k : Fin 256) : D2.lhsIdx (ix2 p q) (e2.symm k) = ix2 p k := by
  funext a; apply Fin.ext
  match a with
  | ⟨0, _⟩ => simp [DotDims.lhsIdx, D2, dot_S1024x256_S256x2_S1024x2_1_0_0_1_n_n]; rfl
  | ⟨1, _⟩ => exact (D2.lhsIdx_val_of_single (cl := 1) rfl (ix2 p q) (e2.symm k)).trans (contrEquiv1_symm_val D2 256 rfl rfl k)

/-- Its right operand there is entry `(k, q)`. -/
theorem rhs2 (p : Fin 1024) (q : Fin 2) (k : Fin 256) : D2.rhsIdx (ix2 p q) (e2.symm k) = ix2 k q := by
  funext a; apply Fin.ext
  match a with
  | ⟨0, _⟩ => exact (D2.rhsIdx_val_of_single (cr := 0) rfl (ix2 p q) (e2.symm k)).trans (contrEquiv1_symm_val D2 256 rfl rfl k)
  | ⟨1, _⟩ => simp [DotDims.rhsIdx, D2, dot_S1024x256_S256x2_S1024x2_1_0_0_1_n_n]; rfl

/-- What the body stores, at entry `(p, q)` of its block: the row `p` of the first operand against the second, then
    against column `q` of the third. Every change of format is the identity on extended reals, and both products start
    from zero. -/
theorem pay_apply (x0 : Vec Ideal S1024x512 .f32) (x1 : Vec Ideal S512x256 .f32) (x2 : Vec Ideal S256x2 .f32)
    (p : Fin 1024) (q : Fin 2) :
    (k0_pay1 (F := Ideal) x0 x1 x2 : S1024x2.Idx → EReal) (ix2 p q)
      = ∑ k : Fin 256, (∑ f : Fin 512, x0 (ix2 p f) * x1 (ix2 f k)) * x2 (ix2 k q) := by
  unfold k0_pay1
  rw [shapeCast_self]
  refine (Ideal.matmul_constant_zero_apply D2 none _ _ (ix2 p q)).trans ?_
  rw [← Equiv.sum_comp e2.symm]
  refine Finset.sum_congr rfl fun k _ => ?_
  rw [lhs2, rhs2]
  refine congrArg (· * x2 (ix2 k q)) ?_
  refine (Ideal.matmul_constant_zero_apply D1 none _ _ (ix2 p k)).trans ?_
  rw [← Equiv.sum_comp e1.symm]
  refine Finset.sum_congr rfl fun f _ => ?_
  rw [lhs1, rhs1]
  rfl

/-! ## One block of the two score columns -/

/-- The two score columns as one `[8192, 2]` array: column 0 the source scores, column 1 the destination scores. -/
def scores (h : Cert.GatSpec.SH.Idx → EReal) (W : Cert.GatSpec.SW.Idx → EReal) (a : Cert.GatSpec.SA.Idx → EReal) :
    S8192x2.Idx → EReal :=
  fun y => if (y 1).val = 0 then Cert.GatSpec.src h W a (y 0) else Cert.GatSpec.dst h W a (y 0)

theorem scores_src (h : Cert.GatSpec.SH.Idx → EReal) (W : Cert.GatSpec.SW.Idx → EReal) (a : Cert.GatSpec.SA.Idx → EReal)
    (i : Fin 8192) : scores h W a (ix2 i (0 : Fin 2)) = Cert.GatSpec.src h W a i := if_pos rfl

theorem scores_dst (h : Cert.GatSpec.SH.Idx → EReal) (W : Cert.GatSpec.SW.Idx → EReal) (a : Cert.GatSpec.SA.Idx → EReal)
    (i : Fin 8192) : scores h W a (ix2 i (1 : Fin 2)) = Cert.GatSpec.dst h W a i := if_neg (Nat.succ_ne_zero 0)

/-- What the body stores at entry `j` of its block is the score array at `y`, once the first operand's row `j 0` is row
    `y 0` of `h`, the second operand is `W`, the third's columns are the halves of `a`, and `y` is in column `j 1`. -/
theorem block_scores (x0 : Vec Ideal S1024x512 .f32) (x1 : Vec Ideal S512x256 .f32) (x2 : Vec Ideal S256x2 .f32)
    (h : Cert.GatSpec.SH.Idx → EReal) (W : Cert.GatSpec.SW.Idx → EReal) (a : Cert.GatSpec.SA.Idx → EReal)
    (j : S1024x2.Idx) (y : S8192x2.Idx) (hy : (y 1).val = (j 1).val)
    (h0 : ∀ f : Fin 512, x0 (ix2 (j 0) f) = h (ix2 (y 0) f))
    (h1 : ∀ (f : Fin 512) (k : Fin 256), x1 (ix2 f k) = W (ix2 f k))
    (h2 : ∀ k : Fin 256, x2 (ix2 k (0 : Fin 2)) = Cert.GatSpec.aTop a k)
    (h3 : ∀ k : Fin 256, x2 (ix2 k (1 : Fin 2)) = Cert.GatSpec.aBot a k) :
    (k0_pay1 (F := Ideal) x0 x1 x2 : S1024x2.Idx → EReal) j = scores h W a y := by
  obtain ⟨p, q, rfl⟩ : ∃ (p : Fin 1024) (q : Fin 2), j = ix2 p q := ⟨j 0, j 1, eq_ix2 j⟩
  have h0' : ∀ f : Fin 512, x0 (ix2 p f) = h (ix2 (y 0) f) := h0
  have hy' : (y 1).val = q.val := hy
  rw [pay_apply]
  unfold scores
  match q, hy' with
  | ⟨0, _⟩, hy' =>
    rw [if_pos hy']
    unfold Cert.GatSpec.src Cert.GatSpec.proj
    refine Finset.sum_congr rfl fun k _ => ?_
    refine congrArg₂ (· * ·) (Finset.sum_congr rfl fun f _ => ?_) (h2 k)
    rw [h0' f, h1 f k]
  | ⟨1, _⟩, hy' =>
    rw [if_neg (by rw [hy']; exact Nat.succ_ne_zero 0)]
    unfold Cert.GatSpec.dst Cert.GatSpec.proj
    refine Finset.sum_congr rfl fun k _ => ?_
    refine congrArg₂ (· * ·) (Finset.sum_congr rfl fun f _ => ?_) (h3 k)
    rw [h0' f, h1 f k]

/-! ## The blocks the first region reads, and the points of its grid -/

theorem hz : (![0, 0] : Fin 2 → Nat) = fun _ => 0 := funext fun a => by fin_cases a <;> rfl

/-- The printed index maps, decided over the grid: the blocks of `h` and of the result move down with the point, the
    other two operands are read whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Row `p` of the block of `h` at point `t` is row `1024 t + p` of the array. -/
theorem iblk_h (t : Fin cfg0.N) (p : Fin 1024) (f : Fin 512) (i : Fin 8192) (hi : i.val = t.val * 1024 + p.val) :
    (iblk0 V c 0 t : S1024x512.Idx → EReal) (ix2 p f) = (V c main_arg0 : S8192x512.Idx → EReal) (ix2 i f) := by
  obtain ⟨e0, e1, -⟩ := idx_facts t
  unfold iblk0
  rw [View.read_apply]
  show (V c main_arg0 : S8192x512.Idx → EReal) _ = (V c main_arg0 : S8192x512.Idx → EReal) _
  refine congrArg (V c main_arg0 : S8192x512.Idx → EReal) (funext fun a => Fin.ext ?_)
  match a with
  | ⟨0, _⟩ => show win0_0.index t (0 : Fin 2) * 1024 + 1 * p.val = i.val; rw [e0, hi]; omega
  | ⟨1, _⟩ => show win0_0.index t (1 : Fin 2) * 512 + 1 * f.val = f.val; rw [e1]; omega

/-- The block of `W` at every point is the whole array. -/
theorem iblk_W (t : Fin cfg0.N) (f : Fin 512) (k : Fin 256) :
    (iblk0 V c 1 t : S512x256.Idx → EReal) (ix2 f k) = (V c main_arg2 : S512x256.Idx → EReal) (ix2 f k) := by
  obtain ⟨-, -, e0, e1, -⟩ := idx_facts t
  unfold iblk0
  rw [View.read_apply]
  show (V c main_arg2 : S512x256.Idx → EReal) _ = (V c main_arg2 : S512x256.Idx → EReal) _
  refine congrArg (V c main_arg2 : S512x256.Idx → EReal) (funext fun a => Fin.ext ?_)
  match a with
  | ⟨0, _⟩ => show win0_1.index t (0 : Fin 2) * 512 + 1 * f.val = f.val; rw [e0]; omega
  | ⟨1, _⟩ => show win0_1.index t (1 : Fin 2) * 256 + 1 * k.val = k.val; rw [e1]; omega

/-- The block of the two-column array at every point is the whole array. -/
theorem iblk_a (t : Fin cfg0.N) (k : Fin 256) (q : Fin 2) :
    (iblk0 V c 2 t : S256x2.Idx → EReal) (ix2 k q) = (V c main_v2 : S256x2.Idx → EReal) (ix2 k q) := by
  obtain ⟨-, -, -, -, e0, e1, -⟩ := idx_facts t
  unfold iblk0
  rw [View.read_apply]
  show (V c main_v2 : S256x2.Idx → EReal) _ = (V c main_v2 : S256x2.Idx → EReal) _
  refine congrArg (V c main_v2 : S256x2.Idx → EReal) (funext fun a => Fin.ext ?_)
  match a with
  | ⟨0, _⟩ => show win0_2.index t (0 : Fin 2) * 256 + 1 * k.val = k.val; rw [e0]; omega
  | ⟨1, _⟩ => show win0_2.index t (1 : Fin 2) * 2 + 1 * q.val = q.val; rw [e1]; omega

end Blocks

/-! ## The arrays the first region is entered with -/

section Run
variable (m : (ℓ : Loc nD τ sig) → Buf (Elt Ideal) ℓ) (ρ : Dev nD → PrngReg) (c : Dev nD)

/-- No host operation before the first region writes `h` … -/
theorem v1_arg0 : V1 (F := Ideal) m ρ c main_arg0 = m ((c : Thread nD τ).loc main_arg0) := by
  dsimp only [V1, W1, hostOps0]; after_results
/-- … nor `W`. -/
theorem v1_arg2 : V1 (F := Ideal) m ρ c main_arg2 = m ((c : Thread nD τ).loc main_arg2) := by
  dsimp only [V1, W1, hostOps0]; after_results

/-- The two-column array is the two halves of `a` side by side. -/
theorem v1_v2 : (V1 (F := Ideal) m ρ c main_v2 : S256x2.Idx → EReal)
    = concatenate S256x2 1
        [⟨S256x1, extractStridedSlice S256x1 ![0, 0] (m ((c : Thread nD τ).loc main_arg3) : S512x1.Idx → EReal) slices_S512x1_S256x1_0_0⟩,
         ⟨S256x1, extractStridedSlice S256x1 ![256, 0] (m ((c : Thread nD τ).loc main_arg3) : S512x1.Idx → EReal) slices_S512x1_S256x1_256_0⟩]
        concatenates_S256x1_S256x1_S256x2_d1 := by
  dsimp only [V1, W1, hostOps0]; after_results

/-- Its column 0 is the top half of `a` … -/
theorem v1_v2_top (k : Fin 256) : (V1 (F := Ideal) m ρ c main_v2 : S256x2.Idx → EReal) (ix2 k (0 : Fin 2))
    = Cert.GatSpec.aTop (m ((c : Thread nD τ).loc main_arg3)) k := by
  rw [v1_v2]
  refine (concatenate_pair_apply_left (t := S256x2) (s₁ := S256x1) (s₂ := S256x1) (1 : Fin 2) _ _
    concatenates_S256x1_S256x1_S256x2_d1 (ix2 k (0 : Fin 2)) (by rfl) (ix2 k (0 : Fin 1)) fun b => ?_).trans ?_
  · match b with
    | ⟨0, _⟩ => rfl
    | ⟨1, _⟩ => rfl
  · refine extractStridedSlice_apply _ _ _ (ix2 k (0 : Fin 1)) (ix2 (⟨k.val, by omega⟩ : Fin 512) (0 : Fin 1)) fun a => ?_
    match a with
    | ⟨0, _⟩ => show k.val = 0 + k.val; omega
    | ⟨1, _⟩ => rfl

/-- … and its column 1 the bottom half. -/
theorem v1_v2_bot (k : Fin 256) : (V1 (F := Ideal) m ρ c main_v2 : S256x2.Idx → EReal) (ix2 k (1 : Fin 2))
    = Cert.GatSpec.aBot (m ((c : Thread nD τ).loc main_arg3)) k := by
  rw [v1_v2]
  refine (concatenate_pair_apply_right (t := S256x2) (s₁ := S256x1) (s₂ := S256x1) (1 : Fin 2) _ _
    concatenates_S256x1_S256x1_S256x2_d1 (ix2 k (1 : Fin 2)) (by rfl) (by rfl) (ix2 k (0 : Fin 1)) (fun b hb => ?_) (by rfl)).trans ?_
  · match b with
    | ⟨0, _⟩ => rfl
    | ⟨1, _⟩ => exact absurd rfl hb
  · refine extractStridedSlice_apply _ _ _ (ix2 k (0 : Fin 1)) (ix2 (⟨256 + k.val, by omega⟩ : Fin 512) (0 : Fin 1)) fun a => ?_
    match a with
    | ⟨0, _⟩ => rfl
    | ⟨1, _⟩ => rfl

/-! ## What the first region writes back, and the array after it -/

/-- The score array of the launch's arguments. -/
abbrev scoresOf : S8192x2.Idx → EReal :=
  scores (m ((c : Thread nD τ).loc main_arg0)) (m ((c : Thread nD τ).loc main_arg2)) (m ((c : Thread nD τ).loc main_arg3))

/-- WHAT POINT `t` WRITES BACK is block `t` of the score array: rows `1024 t …` of both columns. -/
theorem flushed_eq (t : Fin cfg0.N) :
    (dat0 (V1 (F := Ideal) m ρ) c).flushed 3 t = ((cfg0.win 3).blk t).view.read (Elt Ideal) (scoresOf m c) := by
  show (cfg0.win 3).cut (grid0.coords t) ((dat0 (V1 (F := Ideal) m ρ) c).after 3 t) = _
  rw [after0_3]
  unfold out0_3
  rw [View.canon_unit_zero hz]
  simp only [View.ld_unit_zero (S := S1024x512) hz, View.ld_unit_zero (S := S512x256) hz, View.ld_unit_zero (S := S256x2) hz]
  obtain ⟨-, -, -, -, -, -, e0, e1⟩ := idx_facts t
  funext j
  show (k0_pay1 (F := Ideal) (iblk0 (V1 (F := Ideal) m ρ) c 0 t) (iblk0 (V1 (F := Ideal) m ρ) c 1 t) (iblk0 (V1 (F := Ideal) m ρ) c 2 t) : S1024x2.Idx → EReal) j
    = scoresOf m c (((cfg0.win 3).blk t).view.emb j)
  refine block_scores (iblk0 (V1 (F := Ideal) m ρ) c 0 t) (iblk0 (V1 (F := Ideal) m ρ) c 1 t) (iblk0 (V1 (F := Ideal) m ρ) c 2 t)
    (m ((c : Thread nD τ).loc main_arg0)) (m ((c : Thread nD τ).loc main_arg2)) (m ((c : Thread nD τ).loc main_arg3))
    j (((cfg0.win 3).blk t).view.emb j) ?_ (fun f => ?_) (fun f k => ?_) (fun k => ?_) (fun k => ?_)
  · show win0_3.index t (1 : Fin 2) * 2 + 1 * (j 1).val = (j 1).val
    rw [e1]; omega
  · refine (iblk_h (V1 (F := Ideal) m ρ) c t (j 0) f ((((cfg0.win 3).blk t).view.emb j) 0) ?_).trans ?_
    · show win0_3.index t (0 : Fin 2) * 1024 + 1 * (j 0).val = t.val * 1024 + (j 0).val
      rw [e0]; omega
    · rw [v1_arg0]
  · exact (iblk_W (V1 (F := Ideal) m ρ) c t f k).trans (by rw [v1_arg2])
  · exact (iblk_a (V1 (F := Ideal) m ρ) c t k (0 : Fin 2)).trans (v1_v2_top m ρ c k)
  · exact (iblk_a (V1 (F := Ideal) m ρ) c t k (1 : Fin 2)).trans (v1_v2_bot m ρ c k)

/-- An index of the result is in point `t`'s block iff each coordinate is in the block's range on its axis. -/
theorem mem_blk (t : Fin cfg0.N) (i : S8192x2.Idx) :
    i ∈ ((cfg0.win 3).blk t).view.set ↔ ∀ a : Fin 2, win0_3.index t a * S1024x2.size a ≤ (i a).val ∧ (i a).val < win0_3.index t a * S1024x2.size a + S1024x2.size a := by
  show i ∈ ((View.whole main_v3).slice (win0_3.rect t)).set ↔ _
  rw [View.set_slice_whole, Rect.mem_set_unit]
  exact Iff.rfl

/-- The eight blocks tile the result: row `r` is in the block of point `r / 1024`. -/
theorem cover (i : S8192x2.Idx) : ∃ t : Fin cfg0.N, (cfg0.win 3).flush t = true ∧ i ∈ ((cfg0.win 3).blk t).view.set := by
  have hi0 : (i 0).val < 8192 := (i 0).isLt
  have hi1 : (i 1).val < 2 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 2 ≤ (i 1).val ∧ (i 1).val < win0_3.index t (1 : Fin 2) * 2 + 2
    rw [e1]; omega

/-- THE RESULT OF THE FIRST REGION is the score array. -/
theorem scores_final : (dat0 (V1 (F := Ideal) m ρ) c).arrAt 3 cfg0.N = scoresOf m c :=
  (dat0 (V1 (F := Ideal) m ρ) c).arrAt_eq_of_cover 3 (scoresOf m c) (fun t _ => flushed_eq m ρ c t) cover

/-- So it is what the buffers hold there when the first region is left … -/
theorem w2_v3 : (W2 (F := Ideal) m ρ c (Proc.devRef .tc main_v3) : S8192x2.Idx → EReal) = scoresOf m c :=
  (W2_arr m ρ c 3).trans (scores_final m ρ c)

/-! ## The host operations between the two regions -/

/-- … column 0 of it is handed on as an `[8192, 1]` array … -/
theorem v3_v4 : (V3 (F := Ideal) m ρ c main_v4 : S8192x1.Idx → EReal)
    = extractStridedSlice S8192x1 ![0, 0] (W2 (F := Ideal) m ρ c (Proc.devRef .tc main_v3) : S8192x2.Idx → EReal)
        slices_S8192x2_S8192x1_0_0 := by
  dsimp only [V3, W3, hostOps1]; after_results <;> rfl

/-- … and column 1 as a `[1, 8192]` array. -/
theorem v3_v6 : (V3 (F := Ideal) m ρ c main_v6 : S1x8192.Idx → EReal)
    = shapeCast S1x8192
        (extractStridedSlice S8192x1 ![0, 1] (W2 (F := Ideal) m ρ c (Proc.devRef .tc main_v3) : S8192x2.Idx → EReal)
          slices_S8192x2_S8192x1_0_1)
        shapeCasts_S8192x1_S1x8192 := by
  dsimp only [V3, W3, hostOps1]; after_results <;> rfl

/-- The second region's first operand at row `i` is the source score of node `i`. -/
theorem v4_apply (i : Fin 8192) : (V3 (F := Ideal) m ρ c main_v4 : S8192x1.Idx → EReal) (ix2 i (0 : Fin 1))
    = Cert.GatSpec.src (m ((c.tc : Thread nD τ).loc main_arg0)) (m ((c.tc : Thread nD τ).loc main_arg2))
        (m ((c.tc : Thread nD τ).loc main_arg3)) i := by
  rw [v3_v4, w2_v3]
  refine (extractStridedSlice_apply _ _ _ (ix2 i (0 : Fin 1)) (ix2 i (0 : Fin 2)) fun a => ?_).trans (scores_src _ _ _ i)
  match a with
  | ⟨0, _⟩ => show i.val = 0 + i.val; omega
  | ⟨1, _⟩ => rfl

/-- Its second operand at column `j` is the destination score of node `j`. -/
theorem v6_apply (j : Fin 8192) : (V3 (F := Ideal) m ρ c main_v6 : S1x8192.Idx → EReal) (ix2 (0 : Fin 1) j)
    = Cert.GatSpec.dst (m ((c.tc : Thread nD τ).loc main_arg0)) (m ((c.tc : Thread nD τ).loc main_arg2))
        (m ((c.tc : Thread nD τ).loc main_arg3)) j := by
  rw [v3_v6, w2_v3]
  refine (shapeCast_apply _ _ (ix2 (0 : Fin 1) j) (ix2 j (0 : Fin 1)) ?_).trans ?_
  · rw [Shape.rowMajor_val_two, Shape.rowMajor_val_two]
    show j.val * 1 + 0 = 0 * 8192 + j.val
    omega
  · refine (extractStridedSlice_apply _ _ _ (ix2 j (0 : Fin 1)) (ix2 j (1 : Fin 2)) fun a => ?_).trans (scores_dst _ _ _ j)
    match a with
    | ⟨0, _⟩ => show j.val = 0 + j.val; omega
    | ⟨1, _⟩ => rfl

/-- The adjacency array reaches the second region as launched: no host operation and no window of the first region
    writes it. -/
theorem v3_adj : V3 (F := Ideal) m ρ c main_arg1 = m ((c.tc : Thread nD τ).loc main_arg1) :=
  calc V3 (F := Ideal) m ρ c main_arg1
    _ = W2 (F := Ideal) m ρ c (Proc.devRef .tc main_arg1) := by dsimp only [V3, W3, hostOps1]; after_results <;> rfl
    _ = W1 (F := Ideal) m ρ c (Proc.devRef .tc main_arg1) := W2_of_ne m ρ c main_arg1 (by decide)
    _ = m ((c.tc : Thread nD τ).loc main_arg1) := by dsimp only [W1, hostOps0]; after_results <;> rfl

end Run

end Cert.KernelIdeal.ProjValue

end
-- ==== Proof.Finite.lean ====
/-
  The precondition read back: if the printed finiteness predicate of the four argument arrays is all ones,
  every entry of the three float arrays is a real.

  The predicate is the conjunction of three tests "every entry `x` has `|x| < +∞`", each a reduction by
  `and` of the entrywise comparisons from the constant one.  A conjunction that is one has both conjuncts
  one; a reduction by `and` over all axes that is one met only ones; and `max x (-x) < ⊤` fails at both
  infinities, which leaves the reals.
-/
import proofs.«169571_j11716670784207_2_alg».proof.Defs
import Idealize.ShloMosaic.Lib.ReduceAll
import Idealize.ShloMosaic.Lib.ValueIdx

noncomputable section

namespace Cert.GatFinite

open Idealize.ShloMosaic Cert.Pre_finite_inputs

/-- The rank-zero shape has one index. -/
instance : Subsingleton S_.Idx := ⟨fun a b => funext fun d => d.elim0⟩

/-- An extended real whose absolute value is below the pattern of `+∞` is a real. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  induction a using EReal.rec with
  | bot => simp [Ideal.cmp] at h
  | coe r => exact ⟨r, rfl⟩
  | top => simp [Ideal.cmp] at h

theorem entries_real [Cert.Pre_finite_inputs.Facts]
    (x0 : FVec Ideal S8192x512 .f32) (x1 : IVec S8192x8192 32) (x2 : FVec Ideal S512x256 .f32)
    (x3 : FVec Ideal S512x1 .f32)
    (hpre : Cert.Pre_finite_inputs.fn (F := Ideal) x0 x1 x2 x3 = fun _ => 1#1) :
    (∀ y, ∃ r : ℝ, x0 y = (r : EReal)) ∧ (∀ y, ∃ r : ℝ, x2 y = (r : EReal))
      ∧ (∀ y, ∃ r : ℝ, x3 y = (r : EReal)) := by
  have h := congrFun hpre ValueIdx.ix0
  dsimp only [Cert.Pre_finite_inputs.fn, andi] at h
  obtain ⟨h01, h3⟩ := IntOp.andi_eq_one.1 h
  obtain ⟨h0, h2⟩ := IntOp.andi_eq_one.1 h01
  refine ⟨fun y => ?_, fun y => ?_, fun y => ?_⟩
  · exact real_of_abs_lt (x0 y) (Host.reduce_andi_all _ _ _ _ _ h0 y)
  · exact real_of_abs_lt (x2 y) (Host.reduce_andi_all _ _ _ _ _ h2 y)
  · exact real_of_abs_lt (x3 y) (Host.reduce_andi_all _ _ _ _ _ h3 y)

end Cert.GatFinite

end
-- ==== Proof.Result.lean ====
/-
  The idealized kernel program's result array is the specification's attention array, under finite inputs.
  The result buffer holds the attention region's blocks folded over its grid; each block row is the row's shifted
  exponentials times the reciprocal of the row's normaliser, of the masked scores built from the projection region's two
  score vectors. For finite inputs every score is a real, so every masked row is a row of reals: its maximum is attained,
  the term there is `exp 0 = 1`, the normaliser is at least 1 and so not zero, and `p · (1 / l) = p / l`: the stored
  value is the softmax.
-/
import proofs.«169571_j11716670784207_2_alg».proof.Defs
import proofs.«169571_j11716670784207_2_alg».proof.Proof.KernelRun
import proofs.«169571_j11716670784207_2_alg».proof.Proof.GatTrips
import proofs.«169571_j11716670784207_2_alg».proof.Proof.GatValue
import proofs.«169571_j11716670784207_2_alg».proof.Proof.ProjValue
import proofs.«169571_j11716670784207_2_alg».proof.Proof.Finite
import proofs.«169571_j11716670784207_2_alg».proof.Proof.SoftmaxLaws
import proofs.«169571_j11716670784207_2_alg».proof.Proof.GatRow
import proofs.«169571_j11716670784207_2_alg».proof.Proof.Spec
import proofs.«169571_j11716670784207_2_alg».proof.Proof.Gen.Pre_finite_inputs

noncomputable section

namespace Cert.KernelIdeal.Result

open Idealize.ShloMosaic Idealize.ShloMosaic.ValueIdx Idealize.ShloMosaic.TcCoe Idealize.SL.Sem
open Cert.KernelIdeal Cert.KernelIdeal.Gen Cert.GatSpec Cert.GatLaws Cert.GatRow

/-- For a row of reals what the body stores is the softmax: the normaliser is not zero, so the product with its
    reciprocal is the quotient. -/
theorem kform_eq (x : Fin 8192 → EReal) (hx : ∀ j, ∃ r : ℝ, x j = (r : EReal)) (j : Fin 8192) :
    kform x j = softmaxRow x j := by
  unfold kform softmaxRow
  rw [one_eq]
  exact mul_one_div _ _ (rowSum_ne_zero x hx)

/-- The result buffer at the program's end, for finite inputs: the specification of the argument arrays. -/
theorem value (m : (ℓ : Loc nD τ sig) → Buf (Elt Ideal) ℓ) (ρ : Dev nD → PrngReg) (hpre : Cert.Pre_KernelIdeal m) (c : Dev nD) :
    W4 (F := Ideal) m ρ c (Proc.devRef .tc main_v7)
      = Cert.GatSpec.out (m ((c.tc : Thread nD τ).loc main_arg0)) (m ((c.tc : Thread nD τ).loc main_arg1))
          (m ((c.tc : Thread nD τ).loc main_arg2)) (m ((c.tc : Thread nD τ).loc main_arg3)) := by
  obtain ⟨hh, hW, ha⟩ := Cert.GatFinite.entries_real _ _ _ _ (hpre c)
  rw [Cert.KernelIdeal.Run.result_arr,
    Cert.KernelIdeal.GatValue.region_value (V3 (F := Ideal) m ρ) Cert.KernelIdeal.GatTrips.run_canon c]
  funext y
  have e1 : (fun i : Fin 8192 => (V3 (F := Ideal) m ρ c main_v4 : S8192x1.Idx → EReal) (ix2 i (0 : Fin 1)))
      = src (m ((c.tc : Thread nD τ).loc main_arg0)) (m ((c.tc : Thread nD τ).loc main_arg2)) (m ((c.tc : Thread nD τ).loc main_arg3)) :=
    funext fun i => Cert.KernelIdeal.ProjValue.v4_apply m ρ c i
  have e2 : (fun j : Fin 8192 => (V3 (F := Ideal) m ρ c main_v6 : S1x8192.Idx → EReal) (ix2 (0 : Fin 1) j))
      = dst (m ((c.tc : Thread nD τ).loc main_arg0)) (m ((c.tc : Thread nD τ).loc main_arg2)) (m ((c.tc : Thread nD τ).loc main_arg3)) :=
    funext fun j => Cert.KernelIdeal.ProjValue.v6_apply m ρ c j
  rw [e1, e2, Cert.KernelIdeal.ProjValue.v3_adj m ρ c]
  exact kform_eq _ (fun j => masked_real _ _ _ _ j (src_real _ _ _ hh hW ha) (dst_real _ _ _ hh hW ha)) _

end Cert.KernelIdeal.Result

end
-- ==== Proof.lean ====
/-
  The certificate of a graph-attention layer: a two-region kernel program against its plain reference.

  Both programs compute, for 8192 nodes with 512 input features, the attention coefficients
      out[i, j] = softmax over j of ( leaky (src i + dst j) where adj[i, j] > 0, else -2³¹ ),
  with src = (h · W) · a[0:256] and dst = (h · W) · a[256:512]. The kernel program's first region computes both score
  vectors in one product against the two halves of `a` side by side; its second region walks each block of 256 rows in
  four chunks of 2048 columns three times: the rows' maxima, the rows' sums of shifted exponentials, and the stores of
  `exp (score - max) · (1 / sum)`. The reference takes each row's maximum and sum in one reduction and divides.
  At the extended reals the two are one function of the arguments when the float inputs are finite: a maximum and a
  sum do not depend on how the columns are grouped, and a product with the reciprocal of a nonzero real normaliser is
  the quotient by it.

  The three frames are the generated frame certificates (the reference's is its run with the result dropped); the
  idealization rewrote nothing, so `preserves` is `True`; `algebraic` puts the two runs side by side, both ending at
  the specification `Cert.GatSpec.out` of the argument arrays.
-/
import proofs.«169571_j11716670784207_2_alg».proof.Defs
import proofs.«169571_j11716670784207_2_alg».proof.Proof.Gen.Kernel
import proofs.«169571_j11716670784207_2_alg».proof.Proof.Gen.Kernel.Frame
import proofs.«169571_j11716670784207_2_alg».proof.Proof.Gen.KernelIdeal
import proofs.«169571_j11716670784207_2_alg».proof.Proof.Gen.KernelIdeal.Frame
import proofs.«169571_j11716670784207_2_alg».proof.Proof.Gen.ReferenceIdeal
import proofs.«169571_j11716670784207_2_alg».proof.Proof.Gen.Pre_finite_inputs
import proofs.«169571_j11716670784207_2_alg».proof.Proof.KernelRun
import proofs.«169571_j11716670784207_2_alg».proof.Proof.RefRun
import proofs.«169571_j11716670784207_2_alg».proof.Proof.Result
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both programs end at the specification of the arguments. -/
theorem algebraic : Cert.algebraic_KernelIdeal_ReferenceIdeal := by
  intro m ρ m' ρ' hpre hagree
  refine ⟨fun c => Cert.GatSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.value m ρ hpre c), (h c).2⟩)
      (Cert.KernelIdeal.Run.run (F := Ideal) m ρ)
  · refine (θ_run Cert.ReferenceIdeal.defs _ _).mono (fun r h c => ⟨?_, (h c).2⟩)
      (Cert.ReferenceIdeal.RefValue.run m' ρ')
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
